-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S4x4096x128 .f32) (main_arg1 : FVec F S4x4096x4096 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S1x512x4096 : Shape := ⟨3, ![1, 512, 4096]⟩
abbrev S1x4096x128 : Shape := ⟨3, ![1, 4096, 128]⟩
abbrev S1x512x128 : Shape := ⟨3, ![1, 512, 128]⟩
abbrev S512x4096 : Shape := ⟨2, ![512, 4096]⟩
abbrev S512 : Shape := ⟨1, ![512]⟩
abbrev S512x1 : Shape := ⟨2, ![512, 1]⟩
abbrev S4096x128 : Shape := ⟨2, ![4096, 128]⟩
abbrev S512x128 : Shape := ⟨2, ![512, 128]⟩
abbrev S4x4096x64 : Shape := ⟨3, ![4, 4096, 64]⟩
abbrev S1x512x64 : Shape := ⟨3, ![1, 512, 64]⟩
abbrev S512x64 : Shape := ⟨2, ![512, 64]⟩

abbrev nBuf : Space → Nat
  | .hbm => 19
  | .vmem => 26
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S4x4096x128, .bf16⟩
  | .hbm, ⟨9, _⟩ => ⟨S128x128, .bf16⟩
  | .hbm, ⟨10, _⟩ => ⟨S128x128, .bf16⟩
  | .hbm, ⟨11, _⟩ => ⟨S128x64, .bf16⟩
  | .hbm, ⟨12, _⟩ => ⟨S1x128, .f32⟩
  | .hbm, ⟨13, _⟩ => ⟨S1x128, .f32⟩
  | .hbm, ⟨14, _⟩ => ⟨S1x64, .f32⟩
  | .hbm, ⟨15, _⟩ => ⟨S4x4096x128, .bf16⟩
  | .hbm, ⟨16, _⟩ => ⟨S4x4096x4096, .bf16⟩
  | .hbm, ⟨17, _⟩ => ⟨S4x4096x128, .bf16⟩
  | .hbm, ⟨18, _⟩ => ⟨S4x4096x64, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x128, .bf16⟩
  | .local _ .vmem, ⟨3, _⟩ => ⟨S1x4096x128, .bf16⟩
  | .local _ .vmem, ⟨4, _⟩ => ⟨S128x128, .bf16⟩
  | .local _ .vmem, ⟨5, _⟩ => ⟨S1x128, .f32⟩
  | .local _ .vmem, ⟨6, _⟩ => ⟨S1x512x128, .bf16⟩
  | .local _ .vmem, ⟨7, _⟩ => ⟨S1x512x128, .bf16⟩
  | .local _ .vmem, ⟨8, _⟩ => ⟨S1x512x4096, .bf16⟩
  | .local _ .vmem, ⟨9, _⟩ => ⟨S1x512x4096, .bf16⟩
  | .local _ .vmem, ⟨10, _⟩ => ⟨S1x512x4096, .bf16⟩
  | .local _ .vmem, ⟨11, _⟩ => ⟨S1x512x4096, .bf16⟩
  | .local _ .vmem, ⟨12, _⟩ => ⟨S1x4096x128, .bf16⟩
  | .local _ .vmem, ⟨13, _⟩ => ⟨S1x4096x128, .bf16⟩
  | .local _ .vmem, ⟨14, _⟩ => ⟨S128x128, .bf16⟩
  | .local _ .vmem, ⟨15, _⟩ => ⟨S1x128, .f32⟩
  | .local _ .vmem, ⟨16, _⟩ => ⟨S1x512x128, .bf16⟩
  | .local _ .vmem, ⟨17, _⟩ => ⟨S1x512x128, .bf16⟩
  | .local _ .vmem, ⟨18, _⟩ => ⟨S1x512x4096, .bf16⟩
  | .local _ .vmem, ⟨19, _⟩ => ⟨S1x512x4096, .bf16⟩
  | .local _ .vmem, ⟨20, _⟩ => ⟨S1x4096x128, .bf16⟩
  | .local _ .vmem, ⟨21, _⟩ => ⟨S1x4096x128, .bf16⟩
  | .local _ .vmem, ⟨22, _⟩ => ⟨S128x64, .bf16⟩
  | .local _ .vmem, ⟨23, _⟩ => ⟨S1x64, .f32⟩
  | .local _ .vmem, ⟨24, _⟩ => ⟨S1x512x64, .f32⟩
  | .local _ .vmem, ⟨25, _⟩ => ⟨S1x512x64, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  bitsLt_bf16_f32 : FTy.bits .bf16 < FTy.bits .f32
  shapeCasts_S128_S1x128 : S128.ShapeCasts S1x128
  shapeCasts_S64_S1x64 : S64.ShapeCasts S1x64
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S512x4096_S512 : S512x4096.Reduces [1] S512
  shapeCasts_S512_S512x1 : S512.ShapeCasts S512x1
  broadcasts_S512x1_S512x4096 : S512x1.Broadcasts S512x4096
  shapeCasts_S512x4096_S1x512x4096 : S512x4096.ShapeCasts S1x512x4096
  packedbf16_S1x512x4096_S1x512x4096_0_0_0 : (Rect.unit (s := S1x512x4096) ![0, 0, 0] S1x512x4096.size inb_S1x512x4096_S1x512x4096_0_0_0).PackedRows (EltTy.packing .bf16)
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  broadcasts_S512x1_S512x128 : S512x1.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .bf16 = 32 ∨ (Rect.block (s := S4x4096x128) S1x4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S4x4096x128.size a
  hwx0_4 : ∀ i : grid0.Coords, EltTy.bits .bf16 = 32 ∨ (Rect.block (s := S4x4096x128) S1x512x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x4096.size a ≤ S4x4096x4096.size a
  hwx0_5 : ∀ i : grid0.Coords, EltTy.bits .bf16 = 32 ∨ (Rect.block (s := S4x4096x4096) S1x512x4096.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S4x4096x4096.size a
  hwx1_0 : ∀ i : grid1.Coords, EltTy.bits .bf16 = 32 ∨ (Rect.block (s := S4x4096x4096) S1x512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x128.size a
  hwx1_1 : ∀ i : grid1.Coords, EltTy.bits .bf16 = 32 ∨ (Rect.block (s := S4x4096x128) S1x4096x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S4x4096x128.size a
  hwx1_4 : ∀ i : grid1.Coords, EltTy.bits .bf16 = 32 ∨ (Rect.block (s := S4x4096x128) S1x512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x4096.size a ≤ S4x4096x4096.size a
  hwx2_0 : ∀ i : grid2.Coords, EltTy.bits .bf16 = 32 ∨ (Rect.block (s := S4x4096x4096) S1x512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096x128.size a ≤ S4x4096x128.size a
  hwx2_1 : ∀ i : grid2.Coords, EltTy.bits .bf16 = 32 ∨ (Rect.block (s := S4x4096x128) S1x4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x64.size a ≤ S4x4096x64.size a
  hwx2_4 : ∀ i : grid2.Coords, EltTy.bits .f32 = 32 ∨ (Rect.block (s := S4x4096x64) S1x512x64.size (cc2_transform_4 i) (hinb2_4 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7_1) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v7_1) S1x512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x512x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x128 : Shape := ⟨3, ![1, 1, 128]⟩
abbrev S4x4096x64 : Shape := ⟨3, ![4, 4096, 64]⟩
abbrev S1x1x64 : Shape := ⟨3, ![1, 1, 64]⟩

abbrev nBuf : Space → Nat
  | .hbm => 106
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S4x4096x128, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x128, .f32⟩
  | .hbm, ⟨17, _⟩ => ⟨S4x4096x128, .f32⟩
  | .hbm, ⟨18, _⟩ => ⟨S4x4096x128, .f32⟩
  | .hbm, ⟨19, _⟩ => ⟨S1x1x128, .f32⟩
  | .hbm, ⟨20, _⟩ => ⟨S4x4096x128, .f32⟩
  | .hbm, ⟨21, _⟩ => ⟨S4x4096x128, .f32⟩
  | .hbm, ⟨22, _⟩ => ⟨S4x4096x128, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x128, .f32⟩
  | .hbm, ⟨32, _⟩ => ⟨S4x4096x128, .f32⟩
  | .hbm, ⟨33, _⟩ => ⟨S_, .f32⟩
  | .hbm, ⟨34, _⟩ => ⟨S4x4096x128, .f32⟩
  | .hbm, ⟨35, _⟩ => ⟨S4x4096x128, .f32⟩
  | .hbm, ⟨36, _⟩ => ⟨S4x4096x128, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x128, .f32⟩
  | .hbm, ⟨45, _⟩ => ⟨S4x4096x128, .f32⟩
  | .hbm, ⟨46, _⟩ => ⟨S4x4096x128, .f32⟩
  | .hbm, ⟨47, _⟩ => ⟨S1x1x128, .f32⟩
  | .hbm, ⟨48, _⟩ => ⟨S4x4096x128, .f32⟩
  | .hbm, ⟨49, _⟩ => ⟨S4x4096x128, .f32⟩
  | .hbm, ⟨50, _⟩ => ⟨S4x4096x128, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S4x4096x1, .f32⟩
  | .hbm, ⟨55, _⟩ => ⟨S_, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x128, .f32⟩
  | .hbm, ⟨60, _⟩ => ⟨S4x4096x128, .f32⟩
  | .hbm, ⟨61, _⟩ => ⟨S_, .f32⟩
  | .hbm, ⟨62, _⟩ => ⟨S4x4096x128, .f32⟩
  | .hbm, ⟨63, _⟩ => ⟨S4x4096x128, .f32⟩
  | .hbm, ⟨64, _⟩ => ⟨S4x4096x128, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x128, .f32⟩
  | .hbm, ⟨73, _⟩ => ⟨S4x4096x128, .f32⟩
  | .hbm, ⟨74, _⟩ => ⟨S4x4096x64, .f32⟩
  | .hbm, ⟨75, _⟩ => ⟨S1x1x64, .f32⟩
  | .hbm, ⟨76, _⟩ => ⟨S4x4096x64, .f32⟩
  | .hbm, ⟨77, _⟩ => ⟨S4x4096x64, .f32⟩
  | .hbm, ⟨78, _⟩ => ⟨S4x4096x64, .f32⟩
  | .hbm, ⟨79, _⟩ => ⟨S_, .f32⟩
  | .hbm, ⟨80, _⟩ => ⟨S4x4096, .f32⟩
  | .hbm, ⟨81, _⟩ => ⟨S4x4096x1, .f32⟩
  | .hbm, ⟨82, _⟩ => ⟨S4x4096x1, .f32⟩
  | .hbm, ⟨83, _⟩ => ⟨S_, .f32⟩
  | .hbm, ⟨84, _⟩ => ⟨S_, .f32⟩
  | .hbm, ⟨85, _⟩ => ⟨S4x4096x1, .f32⟩
  | .hbm, ⟨86, _⟩ => ⟨S4x4096x1, .f32⟩
  | .hbm, ⟨87, _⟩ => ⟨S4x4096x64, .f32⟩
  | .hbm, ⟨88, _⟩ => ⟨S4x4096x64, .f32⟩
  | .hbm, ⟨89, _⟩ => ⟨S_, .f32⟩
  | .hbm, ⟨90, _⟩ => ⟨S4x4096x64, .f32⟩
  | .hbm, ⟨91, _⟩ => ⟨S4x4096x64, .f32⟩
  | .hbm, ⟨92, _⟩ => ⟨S_, .f32⟩
  | .hbm, ⟨93, _⟩ => ⟨S4x4096, .f32⟩
  | .hbm, ⟨94, _⟩ => ⟨S_, .f32⟩
  | .hbm, ⟨95, _⟩ => ⟨S4x4096, .f32⟩
  | .hbm, ⟨96, _⟩ => ⟨S4x4096, .f32⟩
  | .hbm, ⟨97, _⟩ => ⟨S4x4096x1, .f32⟩
  | .hbm, ⟨98, _⟩ => ⟨S4x4096x64, .f32⟩
  | .hbm, ⟨99, _⟩ => ⟨S4x4096x64, .f32⟩
  | .hbm, ⟨100, _⟩ => ⟨S4x4096x64, .f32⟩
  | .hbm, ⟨101, _⟩ => ⟨S_, .f32⟩
  | .hbm, ⟨102, _⟩ => ⟨S4x4096, .f32⟩
  | .hbm, ⟨103, _⟩ => ⟨S4x4096x1, .f32⟩
  | .hbm, ⟨104, _⟩ => ⟨S4x4096x64, .f32⟩
  | .hbm, ⟨105, _⟩ => ⟨S4x4096x64, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v10 : Ref sig .tc := ⟨.hbm, 26, rfl⟩
abbrev main_cst_1 : Ref sig .tc := ⟨.hbm, 27, rfl⟩
abbrev main_call2_v0 : Ref sig .tc := ⟨.hbm, 28, rfl⟩
abbrev main_call2_v1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call3_cst : Ref sig .tc := ⟨.hbm, 33, rfl⟩
abbrev main_call3_v0 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_call4_v0 : Ref sig .tc := ⟨.hbm, 41, rfl⟩
abbrev main_call4_v1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call5_v0 : Ref sig .tc := ⟨.hbm, 50, rfl⟩
abbrev main_call5_cst : Ref sig .tc := ⟨.hbm, 51, rfl⟩
abbrev main_call5_v1 : Ref sig .tc := ⟨.hbm, 52, rfl⟩
abbrev main_call5_v2 : Ref sig .tc := ⟨.hbm, 53, rfl⟩
abbrev main_v25 : Ref sig .tc := ⟨.hbm, 54, rfl⟩
abbrev main_cst_4 : Ref sig .tc := ⟨.hbm, 55, rfl⟩
abbrev main_call6_v0 : Ref sig .tc := ⟨.hbm, 56, rfl⟩
abbrev main_call6_v1 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call7_cst : Ref sig .tc := ⟨.hbm, 61, rfl⟩
abbrev main_call7_v0 : Ref sig .tc := ⟨.hbm, 62, rfl⟩
abbrev main_v29 : Ref sig .tc := ⟨.hbm, 63, rfl⟩
abbrev main_v30 : Ref sig .tc := ⟨.hbm, 64, rfl⟩
abbrev main_cst_5 : Ref sig .tc := ⟨.hbm, 65, rfl⟩
abbrev main_v31 : Ref sig .tc := ⟨.hbm, 66, rfl⟩
abbrev main_v32 : Ref sig .tc := ⟨.hbm, 67, rfl⟩
abbrev main_cst_6 : Ref sig .tc := ⟨.hbm, 68, rfl⟩
abbrev main_call8_v0 : Ref sig .tc := ⟨.hbm, 69, rfl⟩
abbrev main_call8_v1 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_call9_v0 : Ref sig .tc := ⟨.hbm, 78, rfl⟩
abbrev main_call9_cst : Ref sig .tc := ⟨.hbm, 79, rfl⟩
abbrev main_call9_v1 : Ref sig .tc := ⟨.hbm, 80, rfl⟩
abbrev main_call9_v2 : Ref sig .tc := ⟨.hbm, 81, rfl⟩
abbrev main_v40 : Ref sig .tc := ⟨.hbm, 82, rfl⟩
abbrev main_cst_7 : Ref sig .tc := ⟨.hbm, 83, rfl⟩
abbrev main_call10_v0 : Ref sig .tc := ⟨.hbm, 84, rfl⟩
abbrev main_call10_v1 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_call11_cst : Ref sig .tc := ⟨.hbm, 89, rfl⟩
abbrev main_call11_v0 : Ref sig .tc := ⟨.hbm, 90, rfl⟩
abbrev main_v44 : Ref sig .tc := ⟨.hbm, 91, rfl⟩
abbrev main_cst_8 : Ref sig .tc := ⟨.hbm, 92, rfl⟩
abbrev main_v45 : Ref sig .tc := ⟨.hbm, 93, rfl⟩
abbrev main_cst_9 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_10 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x128_0_1_2 : S4x4096x1.BroadcastsInDim S4x4096x128 (![0, 1, 2] : Fin 3 → Fin S4x4096x128.rank)
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  reducesTo_S4x4096x128_S4x4096_d2 : S4x4096x128.ReducesTo [2] S4x4096
  bcast_S_S4x4096x128 : S_.BroadcastsInDim S4x4096x128 (![] : Fin 0 → Fin S4x4096x128.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  reducesTo_S4x4096x64_S4x4096_d2 : S4x4096x64.ReducesTo [2] S4x4096
  bcast_S4x4096x1_S4x4096x64_0_1_2 : S4x4096x1.BroadcastsInDim S4x4096x64 (![0, 1, 2] : Fin 3 → Fin S4x4096x64.rank)
  bcast_S_S4x4096x64 : S_.BroadcastsInDim S4x4096x64 (![] : Fin 0 → Fin S4x4096x64.rank)
  bcast_S_S4x4096 : S_.BroadcastsInDim S4x4096 (![] : Fin 0 → Fin S4x4096.rank)
  dot_S4x4096x4096_S4x4096x128_S4x4096x128_2_1_1_2_0_0_wf : DotDims.WF S4x4096x4096 S4x4096x128 S4x4096x128 [2] [1] [1] [2] [0] [0]
  dot_S4x4096x128_S128x128_S4x4096x128_2_0_01_1_n_n_wf : DotDims.WF S4x4096x128 S128x128 S4x4096x128 [2] [0] [0, 1] [1] [] []
  dot_S4x4096x128_S128x64_S4x4096x64_2_0_01_1_n_n_wf : DotDims.WF S4x4096x128 S128x64 S4x4096x64 [2] [0] [0, 1] [1] [] []

variable [Facts₀]

def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf
def dot_S4x4096x128_S128x128_S4x4096x128_2_0_01_1_n_n : DotDims S4x4096x128 S128x128 S4x4096x128 where
  lhsContracting := [2]
  rhsContracting := [0]
  lhsNonContracting := [0, 1]
  rhsNonContracting := [1]
  lhsBatch := []
  rhsBatch := []
  wf := dot_S4x4096x128_S128x128_S4x4096x128_2_0_01_1_n_n_wf
def dot_S4x4096x128_S128x64_S4x4096x64_2_0_01_1_n_n : DotDims S4x4096x128 S128x64 S4x4096x64 where
  lhsContracting := [2]
  rhsContracting := [0]
  lhsNonContracting := [0, 1]
  rhsNonContracting := [1]
  lhsBatch := []
  rhsBatch := []
  wf := dot_S4x4096x128_S128x64_S4x4096x64_2_0_01_1_n_n_wf

class Facts : Prop extends Facts₀ where

variable [Facts]
-- ==== Proof.Spec.lean ====
/-
  The mathematics both programs compute, on the extended reals, for one graph (one batch entry).

  A layer takes the adjacency rows A i, node features X, a weight matrix W and a bias b.  Written the
  reference's way (suffix R) a layer first forms the neighbour sum  sum_j A i j * X j d,  divides it by the
  clamped degree  max eps6 (0 + sum_j A i j),  applies the linear map, divides each row by its clamped
  Euclidean norm and clamps at zero from below.  Written the kernel's way (suffix K) the adjacency is
  first normalised, An i j = A i j * (1 / max (sum_j A i j) eps6), and the neighbour sum is taken of An.
  The two agree on EVERY extended real: the clamped degree m is above eps6 > 0, so its inverse is a
  nonnegative real (zero when m is +inf), and multiplication by a nonnegative real distributes over every
  extended-real sum.  No finiteness of the inputs is used.
  The last layer is followed by a row softmax; the reference takes the row maximum once more against -inf,
  which changes nothing because a fold of max started at -inf is already above -inf.
-/
import Idealize.ShloMosaic.PureOps.Ideal.Laws
import Idealize.ShloMosaic.Lib.ValueIdx

noncomputable section

open scoped BigOperators

namespace Cert.Sage

open Idealize.ShloMosaic

/-- The five float literals the two programs share, as the extended reals their patterns denote. -/
abbrev z : EReal := Ideal.ofBits .f32 0x00000000#32
abbrev e6 : EReal := Ideal.ofBits .f32 0x358637BD#32
abbrev e12 : EReal := Ideal.ofBits .f32 0x2B8CBCCC#32
abbrev ninf : EReal := Ideal.ofBits .f32 0xFF800000#32
abbrev one : EReal := Ideal.ofBits .f32 0x3F800000#32

theorem z_eq : z = 0 := Ideal.ofBits_zero_f32
theorem one_eq : one = 1 := by
  simp [Ideal.ofBits, Ideal.ieee, -EReal.coe_mul]; norm_num
theorem e6_pos : 0 < e6 := by
  simp [Ideal.ofBits, Ideal.ieee, -EReal.coe_mul]

variable {N D E : Nat}

/-! ## The reference's spelling -/

/-- A row's clamped degree, the reference's way: the sum started at the zero literal, clamped from below. -/
def degR (a : Fin N → EReal) : EReal := max e6 (z + ∑ j, a j)
/-- Mean aggregation: the neighbour sum divided by the clamped degree. -/
def aggR (A : Fin N → Fin N → EReal) (X : Fin N → Fin D → EReal) (i : Fin N) (d : Fin D) : EReal :=
  Ideal.div (∑ j, A i j * X j d) (degR (A i))
/-- The linear map with its bias. -/
def linOf (G : Fin N → Fin D → EReal) (W : Fin D → Fin E → EReal) (b : Fin E → EReal) (i : Fin N) (e : Fin E) : EReal :=
  (∑ d, G i d * W d e) + b e
/-- A row's clamped Euclidean norm, the reference's way. -/
def nrmR (H : Fin E → EReal) : EReal := max e12 (Ideal.sqrt (z + ∑ e, H e * H e))
/-- Normalise the row and clamp at zero. -/
def actR (H : Fin E → EReal) (e : Fin E) : EReal := max (Ideal.div (H e) (nrmR H)) z
/-- One layer, the reference's way. -/
def layerR (A : Fin N → Fin N → EReal) (X : Fin N → Fin D → EReal) (W : Fin D → Fin E → EReal) (b : Fin E → EReal)
    (i : Fin N) (e : Fin E) : EReal :=
  actR (linOf (aggR A X) W b i) e
/-- The row softmax, the reference's way: the maximum taken against -inf once more, the sum started at zero. -/
def smR (H : Fin E → EReal) (e : Fin E) : EReal :=
  Ideal.div (Ideal.exp (H e - max ninf ((Finset.univ : Finset (Fin E)).fold max ninf H)))
    (z + ∑ e', Ideal.exp (H e' - max ninf ((Finset.univ : Finset (Fin E)).fold max ninf H)))
/-- The whole network on one graph, the reference's way. -/
def netR (A : Fin N → Fin N → EReal) (X : Fin N → Fin 128 → EReal) (W0 : Fin 128 → Fin 128 → EReal) (b0 : Fin 128 → EReal)
    (W1 : Fin 128 → Fin 128 → EReal) (b1 : Fin 128 → EReal) (W2 : Fin 128 → Fin 64 → EReal) (b2 : Fin 64 → EReal)
    (i : Fin N) (e : Fin 64) : EReal :=
  smR (layerR A (layerR A (layerR A X W0 b0) W1 b1) W2 b2 i) e

/-! ## The kernel's spelling -/

/-- A row's clamped degree, the kernel's way. -/
def degK (a : Fin N → EReal) : EReal := max (∑ j, a j) e6
/-- The adjacency with each row divided by its clamped degree. -/
def adjn (A : Fin N → Fin N → EReal) (i j : Fin N) : EReal := A i j * Ideal.div one (degK (A i))
/-- The neighbour sum of an already normalised adjacency. -/
def aggK (An : Fin N → Fin N → EReal) (X : Fin N → Fin D → EReal) (i : Fin N) (d : Fin D) : EReal :=
  ∑ j, An i j * X j d
/-- A row's clamped Euclidean norm, the kernel's way. -/
def nrmK (H : Fin E → EReal) : EReal := max (Ideal.sqrt (∑ e, H e * H e)) e12
def actK (H : Fin E → EReal) (e : Fin E) : EReal := max (Ideal.div (H e) (nrmK H)) z
/-- One layer, the kernel's way, from the normalised adjacency. -/
def layerK (An : Fin N → Fin N → EReal) (X : Fin N → Fin D → EReal) (W : Fin D → Fin E → EReal) (b : Fin E → EReal)
    (i : Fin N) (e : Fin E) : EReal :=
  actK (linOf (aggK An X) W b i) e
/-- The row softmax, the kernel's way. -/
def smK (H : Fin E → EReal) (e : Fin E) : EReal :=
  Ideal.div (Ideal.exp (H e - (Finset.univ : Finset (Fin E)).fold max ninf H))
    (∑ e', Ideal.exp (H e' - (Finset.univ : Finset (Fin E)).fold max ninf H))
/-- The whole network on one graph, the kernel's way. -/
def netK (A : Fin N → Fin N → EReal) (X : Fin N → Fin 128 → EReal) (W0 : Fin 128 → Fin 128 → EReal) (b0 : Fin 128 → EReal)
    (W1 : Fin 128 → Fin 128 → EReal) (b1 : Fin 128 → EReal) (W2 : Fin 128 → Fin 64 → EReal) (b2 : Fin 64 → EReal)
    (i : Fin N) (e : Fin 64) : EReal :=
  smK (layerK (adjn A) (layerK (adjn A) (layerK (adjn A) X W0 b0) W1 b1) W2 b2 i) e

/-! ## The two spellings agree -/

/-- Multiplication by a nonnegative real distributes over any finite sum of extended reals. -/
theorem sum_mul_nonneg {ι : Type} (s : Finset ι) (f : ι → EReal) (c : EReal) (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

theorem degK_eq (a : Fin N → EReal) : degK a = degR a := by
  unfold degK degR; rw [z_eq, zero_add, max_comm]

theorem degR_pos (a : Fin N → EReal) : 0 < degR a := lt_of_lt_of_le e6_pos (le_max_left _ _)

/-- Dividing one by the clamped degree gives its inverse, a nonnegative real. -/
theorem inv_deg (a : Fin N → EReal) : Ideal.div one (degK a) = (degR a)⁻¹ := by
  rw [degK_eq, Ideal.div, if_neg (degR_pos a).ne', one_eq, one_mul]

theorem div_deg (x : EReal) (a : Fin N → EReal) : Ideal.div x (degR a) = x * (degR a)⁻¹ := by
  rw [Ideal.div, if_neg (degR_pos a).ne']

/-- The law that joins the two sides: normalising the adjacency first, or dividing the neighbour sum after. -/
theorem agg_eq (A : Fin N → Fin N → EReal) (X : Fin N → Fin D → EReal) : aggK (adjn A) X = aggR A X := by
  funext i d
  unfold aggK aggR adjn
  rw [div_deg, inv_deg,
    sum_mul_nonneg _ _ _ (EReal.inv_nonneg_of_nonneg (degR_pos (A i)).le) (EReal.inv_lt_top _).ne]
  exact Finset.sum_congr rfl fun j _ => by rw [mul_assoc, mul_assoc, mul_comm ((degR (A i))⁻¹)]

theorem nrmK_eq (H : Fin E → EReal) : nrmK H = nrmR H := by
  unfold nrmK nrmR; rw [z_eq, zero_add, max_comm]

theorem layer_eq (A : Fin N → Fin N → EReal) (X : Fin N → Fin D → EReal) (W : Fin D → Fin E → EReal) (b : Fin E → EReal) :
    layerK (adjn A) X W b = layerR A X W b := by
  funext i e
  unfold layerK layerR actK actR
  rw [agg_eq, nrmK_eq]

theorem sm_eq (H : Fin E → EReal) : smK H = smR H := by
  funext e
  unfold smK smR
  rw [max_eq_right (Finset.le_fold_max ninf |>.mpr (Or.inl le_rfl)), z_eq, zero_add]

theorem net_eq (A : Fin N → Fin N → EReal) (X : Fin N → Fin 128 → EReal) (W0 : Fin 128 → Fin 128 → EReal) (b0 : Fin 128 → EReal)
    (W1 : Fin 128 → Fin 128 → EReal) (b1 : Fin 128 → EReal) (W2 : Fin 128 → Fin 64 → EReal) (b2 : Fin 64 → EReal) :
    netK A X W0 b0 W1 b1 W2 b2 = netR A X W0 b0 W1 b1 W2 b2 := by
  funext i e
  unfold netK netR
  rw [layer_eq, layer_eq, layer_eq, sm_eq]

end Cert.Sage

end
-- ==== Proof.KPay.lean ====
/-
  What one grid point of each of the three kernels stores, read at one element.

  A grid point holds 512 rows of one graph.  The first kernel's point stores (a) the 512 x 4096 block of the
  adjacency with every row multiplied by one over its clamped degree, and (b) the first layer's 512 x 128 output
  rows; the second and third kernels' points read such a normalised block and store a layer's output rows, the
  third followed by the row softmax.  Every lemma below reads one stored element as the row function of the
  specification (rowK: neighbour sum of the normalised row, linear map, bias, division by the clamped norm, clamp
  at zero): casts between [1, a, b] and [a, b] and between a vector and a column are re-indexings, a lane
  reduction is the sum (or the fold of max) over the row, a matrix product into zero is the sum over the contracted
  coordinate, a change of float format is the identity.
-/
import proofs.«132532_g79680233276342_cont_9to1_m_150_2_alg».proof.Proof.Gen.KernelIdeal.Skeleton
import proofs.«132532_g79680233276342_cont_9to1_m_150_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage.Pay

open Cert.KernelIdeal Cert.KernelIdeal.Gen Idealize.ShloMosaic Idealize.ShloMosaic.ValueIdx Cert.Sage

variable {α : Type}

/-! ## The row functions of the specification -/

variable {N D E : Nat}

/-- One row of the normalised adjacency, from the row of the adjacency. -/
def adjnRow (a : Fin N → EReal) (j : Fin N) : EReal := a j * Ideal.div one (degK a)
/-- One output row of a layer, from the row an of the normalised adjacency. -/
def rowK (an : Fin N → EReal) (X : Fin N → Fin D → EReal) (W : Fin D → Fin E → EReal) (b : Fin E → EReal) (e : Fin E) : EReal :=
  actK (fun e' => (∑ d, (∑ j, an j * X j d) * W d e') + b e') e

theorem adjn_row (A : Fin N → Fin N → EReal) (i : Fin N) : adjn A i = adjnRow (A i) := rfl
theorem layerK_row (An : Fin N → Fin N → EReal) (X : Fin N → Fin D → EReal) (W : Fin D → Fin E → EReal) (b : Fin E → EReal) (i : Fin N) :
    layerK An X W b i = rowK (An i) X W b := rfl

/-! ## Re-indexings the library does not state -/

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl

/-- A lane sum over the second axis, read at row p: the sum of the row. -/
theorem rowsum_at {a b : ℕ} (src : FVec Ideal ⟨2, ![a, b]⟩ .f32) (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by match d with | ⟨0, _⟩ => rfl | ⟨1, _⟩ => rfl)))

/-- A lane maximum over the second axis, read at row p: the fold of max over the row, started at the literal. -/
theorem rowmax_at {a b : ℕ} (src : FVec Ideal ⟨2, ![a, b]⟩ .f32) (h : Shape.Reduces ⟨2, ![a, b]⟩ [1] ⟨1, ![a]⟩) (hφ : FKind.Formats .f32)
    (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max ninf (fun k => src (ix2 p k)) :=
  (Ideal.multiReduction_maximumf_single src 0xFF800000#32 h hφ hacc (ix1 p)).trans
    (congrArg ((Finset.univ : Finset (Fin b)).fold max ninf)
      (funext fun k => congrArg src (funext fun d => Fin.ext (by match d with | ⟨0, _⟩ => rfl | ⟨1, _⟩ => rfl))))

/-! ## The three matrix products -/

theorem mmA_l0 (i : S512x128.Idx) (q : dot_S512x4096_S4096x128_S512x128_1_0_0_1_n_n.contr.Idx) : (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem mmA_l1 (i : S512x128.Idx) (q : dot_S512x4096_S4096x128_S512x128_1_0_0_1_n_n.contr.Idx) : (dot_S512x4096_S4096x128_S512x128_1_0_0_1_n_n.lhsIdx i q 1).val = (q ⟨0, by decide⟩).val :=
  dot_S512x4096_S4096x128_S512x128_1_0_0_1_n_n.lhsIdx_val_of_single rfl i q
theorem mmA_r0 (i : S512x128.Idx) (q : dot_S512x4096_S4096x128_S512x128_1_0_0_1_n_n.contr.Idx) : (dot_S512x4096_S4096x128_S512x128_1_0_0_1_n_n.rhsIdx i q 0).val = (q ⟨0, by decide⟩).val :=
  dot_S512x4096_S4096x128_S512x128_1_0_0_1_n_n.rhsIdx_val_of_single rfl i q
theorem mmA_r1 (i : S512x128.Idx) (q : dot_S512x4096_S4096x128_S512x128_1_0_0_1_n_n.contr.Idx) : (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl
/-- The matrix product into a zero accumulator, read at (p, c): the sum over the contracted coordinate. -/
theorem mmA_at {φ₁ φ₂ : FTy} (L : FVec Ideal S512x4096 φ₁) (R : FVec Ideal S4096x128 φ₂) (p : Fin 512) (c : Fin 128) :
    matmul dot_S512x4096_S4096x128_S512x128_1_0_0_1_n_n none L R (constant S512x128 .f32 0x00000000#32) (ix2 p c) = ∑ k : Fin 4096, L (ix2 p k) * R (ix2 k c) := by
  simp only [matmul]
  rw [Ideal.matmul_constant_zero_apply, ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p c) ((contrEquiv1 dot_S512x4096_S4096x128_S512x128_1_0_0_1_n_n 4096 rfl rfl).symm k) = ix2 p k := funext fun a => Fin.ext (by
    match a with
    | ⟨0, _⟩ => exact mmA_l0 _ _
    | ⟨1, _⟩ => exact (mmA_l1 _ _).trans hk)
  have er : dot_S512x4096_S4096x128_S512x128_1_0_0_1_n_n.rhsIdx (ix2 p c) ((contrEquiv1 dot_S512x4096_S4096x128_S512x128_1_0_0_1_n_n 4096 rfl rfl).symm k) = ix2 k c := funext fun a => Fin.ext (by
    match a with
    | ⟨0, _⟩ => exact (mmA_r0 _ _).trans hk
    | ⟨1, _⟩ => exact mmA_r1 _ _)
  rw [el, er]

theorem mmB_l0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem mmB_l1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem mmB_r0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem mmB_r1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl
/-- The matrix product into a zero accumulator, read at (p, c): the sum over the contracted coordinate. -/
theorem mmB_at {φ₁ φ₂ : FTy} (L : FVec Ideal S512x128 φ₁) (R : FVec Ideal S128x128 φ₂) (p : Fin 512) (c : Fin 128) :
    matmul dot_S512x128_S128x128_S512x128_1_0_0_1_n_n none L R (constant S512x128 .f32 0x00000000#32) (ix2 p c) = ∑ k : Fin 128, L (ix2 p k) * R (ix2 k c) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p c) ((contrEquiv1 dot_S512x128_S128x128_S512x128_1_0_0_1_n_n 128 rfl rfl).symm k) = ix2 p k := funext fun a => Fin.ext (by
    match a with
    | ⟨0, _⟩ => exact mmB_l0 _ _
    | ⟨1, _⟩ => exact (mmB_l1 _ _).trans hk)
  have er : dot_S512x128_S128x128_S512x128_1_0_0_1_n_n.rhsIdx (ix2 p c) ((contrEquiv1 dot_S512x128_S128x128_S512x128_1_0_0_1_n_n 128 rfl rfl).symm k) = ix2 k c := funext fun a => Fin.ext (by
    match a with
    | ⟨0, _⟩ => exact (mmB_r0 _ _).trans hk
    | ⟨1, _⟩ => exact mmB_r1 _ _)
  rw [el, er]

theorem mmC_l0 (i : S512x64.Idx) (q : dot_S512x128_S128x64_S512x64_1_0_0_1_n_n.contr.Idx) : (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem mmC_l1 (i : S512x64.Idx) (q : dot_S512x128_S128x64_S512x64_1_0_0_1_n_n.contr.Idx) : (dot_S512x128_S128x64_S512x64_1_0_0_1_n_n.lhsIdx i q 1).val = (q ⟨0, by decide⟩).val :=
  dot_S512x128_S128x64_S512x64_1_0_0_1_n_n.lhsIdx_val_of_single rfl i q
theorem mmC_r0 (i : S512x64.Idx) (q : dot_S512x128_S128x64_S512x64_1_0_0_1_n_n.contr.Idx) : (dot_S512x128_S128x64_S512x64_1_0_0_1_n_n.rhsIdx i q 0).val = (q ⟨0, by decide⟩).val :=
  dot_S512x128_S128x64_S512x64_1_0_0_1_n_n.rhsIdx_val_of_single rfl i q
theorem mmC_r1 (i : S512x64.Idx) (q : dot_S512x128_S128x64_S512x64_1_0_0_1_n_n.contr.Idx) : (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl
/-- The matrix product into a zero accumulator, read at (p, c): the sum over the contracted coordinate. -/
theorem mmC_at {φ₁ φ₂ : FTy} (L : FVec Ideal S512x128 φ₁) (R : FVec Ideal S128x64 φ₂) (p : Fin 512) (c : Fin 64) :
    matmul dot_S512x128_S128x64_S512x64_1_0_0_1_n_n none L R (constant S512x64 .f32 0x00000000#32) (ix2 p c) = ∑ k : Fin 128, L (ix2 p k) * R (ix2 k c) := by
  simp only [matmul]
  rw [Ideal.matmul_constant_zero_apply, ← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 p c) ((contrEquiv1 dot_S512x128_S128x64_S512x64_1_0_0_1_n_n 128 rfl rfl).symm k) = ix2 p k := funext fun a => Fin.ext (by
    match a with
    | ⟨0, _⟩ => exact mmC_l0 _ _
    | ⟨1, _⟩ => exact (mmC_l1 _ _).trans hk)
  have er : dot_S512x128_S128x64_S512x64_1_0_0_1_n_n.rhsIdx (ix2 p c) ((contrEquiv1 dot_S512x128_S128x64_S512x64_1_0_0_1_n_n 128 rfl rfl).symm k) = ix2 k c := funext fun a => Fin.ext (by
    match a with
    | ⟨0, _⟩ => exact (mmC_r0 _ _).trans hk
    | ⟨1, _⟩ => exact mmC_r1 _ _)
  rw [el, er]

/-! ## The stored elements -/

/-- The normalised adjacency block at (p, q): the entry times one over the row's clamped degree. -/
theorem pay2_at (v0 : Vec Ideal S1x512x4096 .f32) (p : Fin 512) (q : Fin 4096) :
    k0_pay2 v0 (ix2 p q) = adjnRow (fun k : Fin 4096 => v0 (ix3 (0 : Fin 1) p k)) q := by
  unfold k0_pay2 adjnRow degK
  try dsimp only
  simp only [truncf_apply, maximumf_apply, divf_apply, subf_apply, mulf_apply, addf_apply, sqrt_apply, exp_apply, broadcast_apply,
    broadcastTo_a1_ab_apply, broadcastTo_1b_ab_apply, shapeCast_a_a1_apply, shapeCast_1ab_ab_apply, shapeCast_ab_1ab_apply, shapeCast_self,
    mmA_at, mmB_at, mmC_at]
  rw [rowsum_at]
  simp only [truncf_apply, maximumf_apply, divf_apply, subf_apply, mulf_apply, addf_apply, sqrt_apply, exp_apply, broadcast_apply,
    broadcastTo_a1_ab_apply, broadcastTo_1b_ab_apply, shapeCast_a_a1_apply, shapeCast_1ab_ab_apply, shapeCast_ab_1ab_apply, shapeCast_self,
    mmA_at, mmB_at, mmC_at]
  rfl

/-- The first kernel's stored adjacency block, as a [1, 512, 4096] block. -/
theorem pay3_at (v0 : Vec Ideal S1x512x4096 .f32) (u : Fin 1) (p : Fin 512) (q : Fin 4096) :
    k0_pay3 v0 (ix3 u p q) = adjnRow (fun k : Fin 4096 => v0 (ix3 (0 : Fin 1) p k)) q := by
  unfold k0_pay3
  rw [shapeCast_ab_1ab_apply, pay2_at]

/-- The first kernel's stored layer output at (p, e). -/
theorem pay0_at (v0 : Vec Ideal S1x512x4096 .f32) (v14 : Vec Ideal S1x4096x128 .bf16) (v18 : Vec Ideal S128x128 .bf16) (v21 : Vec Ideal S1x128 .f32)
    (u : Fin 1) (p : Fin 512) (e : Fin 128) :
    k0_pay1 (k0_pay4 v0 v14 v18 v21) (ix3 u p e)
      = rowK (adjnRow fun k : Fin 4096 => v0 (ix3 (0 : Fin 1) p k)) (fun j d => v14 (ix3 (0 : Fin 1) j d)) (fun d e' => v18 (ix2 d e'))
          (fun e' => v21 (ix2 (0 : Fin 1) e')) e := by
  unfold k0_pay1 k0_pay4 rowK actK nrmK
  try dsimp only
  simp only [truncf_apply, maximumf_apply, divf_apply, subf_apply, mulf_apply, addf_apply, sqrt_apply, exp_apply, broadcast_apply,
    broadcastTo_a1_ab_apply, broadcastTo_1b_ab_apply, shapeCast_a_a1_apply, shapeCast_1ab_ab_apply, shapeCast_ab_1ab_apply, shapeCast_self,
    mmA_at, mmB_at, mmC_at, pay2_at]
  iterate 6 (first | rw [rowmax_at] | rw [rowsum_at] | skip) <;> try simp only [truncf_apply, maximumf_apply, divf_apply, subf_apply, mulf_apply, addf_apply, sqrt_apply, exp_apply, broadcast_apply,
    broadcastTo_a1_ab_apply, broadcastTo_1b_ab_apply, shapeCast_a_a1_apply, shapeCast_1ab_ab_apply, shapeCast_ab_1ab_apply, shapeCast_self,
    mmA_at, mmB_at, mmC_at, pay2_at]
  rfl

/-- The second kernel's stored layer output at (p, e). -/
theorem pay1_at (v0 : Vec Ideal S1x512x4096 .bf16) (v2 : Vec Ideal S1x4096x128 .bf16) (v6 : Vec Ideal S128x128 .bf16) (v9 : Vec Ideal S1x128 .f32)
    (u : Fin 1) (p : Fin 512) (e : Fin 128) :
    k1_pay1 v0 v2 v6 v9 (ix3 u p e)
      = rowK (fun k : Fin 4096 => v0 (ix3 (0 : Fin 1) p k)) (fun j d => v2 (ix3 (0 : Fin 1) j d)) (fun d e' => v6 (ix2 d e'))
          (fun e' => v9 (ix2 (0 : Fin 1) e')) e := by
  unfold k1_pay1 rowK actK nrmK
  try dsimp only
  simp only [truncf_apply, maximumf_apply, divf_apply, subf_apply, mulf_apply, addf_apply, sqrt_apply, exp_apply, broadcast_apply,
    broadcastTo_a1_ab_apply, broadcastTo_1b_ab_apply, shapeCast_a_a1_apply, shapeCast_1ab_ab_apply, shapeCast_ab_1ab_apply, shapeCast_self,
    mmA_at, mmB_at, mmC_at, pay2_at]
  iterate 6 (first | rw [rowmax_at] | rw [rowsum_at] | skip) <;> try simp only [truncf_apply, maximumf_apply, divf_apply, subf_apply, mulf_apply, addf_apply, sqrt_apply, exp_apply, broadcast_apply,
    broadcastTo_a1_ab_apply, broadcastTo_1b_ab_apply, shapeCast_a_a1_apply, shapeCast_1ab_ab_apply, shapeCast_ab_1ab_apply, shapeCast_self,
    mmA_at, mmB_at, mmC_at, pay2_at]
  rfl

/-- The third kernel's stored softmax row at (p, e). -/
theorem pay2k_at (v0 : Vec Ideal S1x512x4096 .bf16) (v2 : Vec Ideal S1x4096x128 .bf16) (v6 : Vec Ideal S128x64 .bf16) (v9 : Vec Ideal S1x64 .f32)
    (u : Fin 1) (p : Fin 512) (e : Fin 64) :
    k2_pay1 v0 v2 v6 v9 (ix3 u p e)
      = smK (rowK (fun k : Fin 4096 => v0 (ix3 (0 : Fin 1) p k)) (fun j d => v2 (ix3 (0 : Fin 1) j d)) (fun d e' => v6 (ix2 d e'))
          (fun e' => v9 (ix2 (0 : Fin 1) e'))) e := by
  unfold k2_pay1 smK rowK actK nrmK
  try dsimp only
  simp only [truncf_apply, maximumf_apply, divf_apply, subf_apply, mulf_apply, addf_apply, sqrt_apply, exp_apply, broadcast_apply,
    broadcastTo_a1_ab_apply, broadcastTo_1b_ab_apply, shapeCast_a_a1_apply, shapeCast_1ab_ab_apply, shapeCast_ab_1ab_apply, shapeCast_self,
    mmA_at, mmB_at, mmC_at, pay2_at]
  iterate 6 (first | rw [rowmax_at] | rw [rowsum_at] | skip) <;> try simp only [truncf_apply, maximumf_apply, divf_apply, subf_apply, mulf_apply, addf_apply, sqrt_apply, exp_apply, broadcast_apply,
    broadcastTo_a1_ab_apply, broadcastTo_1b_ab_apply, shapeCast_a_a1_apply, shapeCast_1ab_ab_apply, shapeCast_ab_1ab_apply, shapeCast_self,
    mmA_at, mmB_at, mmC_at, pay2_at]
  rfl

end Cert.Sage.Pay

end
-- ==== Proof.KGrid.lean ====
/-
  What each of the four arrays the kernels write ends holding, as one function of the arrays the kernel reads:
  the normalised adjacency (NormAdj), the first layer's output from the raw adjacency (FirstLayer), a layer's output from the
  normalised adjacency (NextLayer), and the last layer's output followed by the row softmax (LastLayer).  An array element
  (b, r, e) depends on row r of graph b of the adjacency, on all of graph b's node features, and on the shared
  weights and bias.  Also: what a grid point stores, at an arbitrary index of its block.
-/
import proofs.«132532_g79680233276342_cont_9to1_m_150_2_alg».proof.Proof.KPay

noncomputable section

open scoped BigOperators

namespace Cert.Sage.Blocks

open Cert.KernelIdeal Cert.KernelIdeal.Gen Idealize.ShloMosaic Idealize.ShloMosaic.ValueIdx Cert.Sage Cert.Sage.Pay

theorem hz3 : (![0, 0, 0] : Fin 3 → Nat) = fun _ => 0 := funext fun a => by fin_cases a <;> rfl
theorem hz2 : (![0, 0] : Fin 2 → Nat) = fun _ => 0 := funext fun a => by fin_cases a <;> rfl

/-- The normalised adjacency: every row of every graph times one over its clamped degree. -/
def NormAdj (A : S4x4096x4096.Idx → EReal) : S4x4096x4096.Idx → EReal :=
  fun i => adjnRow (fun k : Fin 4096 => A (ix3 (i 0) (i 1) k)) (i 2)

/-- The first layer's output, from the raw adjacency. -/
def FirstLayer (A : S4x4096x4096.Idx → EReal) (X : S4x4096x128.Idx → EReal) (W : S128x128.Idx → EReal) (b : S1x128.Idx → EReal) : S4x4096x128.Idx → EReal :=
  fun i => rowK (adjnRow fun k : Fin 4096 => A (ix3 (i 0) (i 1) k)) (fun (j : Fin 4096) (d : Fin 128) => X (ix3 (i 0) j d))
    (fun (d : Fin 128) (e : Fin 128) => W (ix2 d e)) (fun e : Fin 128 => b (ix2 (0 : Fin 1) e)) (i 2)

/-- A layer's output, from the normalised adjacency. -/
def NextLayer (An : S4x4096x4096.Idx → EReal) (X : S4x4096x128.Idx → EReal) (W : S128x128.Idx → EReal) (b : S1x128.Idx → EReal) : S4x4096x128.Idx → EReal :=
  fun i => rowK (fun k : Fin 4096 => An (ix3 (i 0) (i 1) k)) (fun (j : Fin 4096) (d : Fin 128) => X (ix3 (i 0) j d))
    (fun (d : Fin 128) (e : Fin 128) => W (ix2 d e)) (fun e : Fin 128 => b (ix2 (0 : Fin 1) e)) (i 2)

/-- The last layer's output followed by the row softmax. -/
def LastLayer (An : S4x4096x4096.Idx → EReal) (X : S4x4096x128.Idx → EReal) (W : S128x64.Idx → EReal) (b : S1x64.Idx → EReal) : S4x4096x64.Idx → EReal :=
  fun i => smK (rowK (fun k : Fin 4096 => An (ix3 (i 0) (i 1) k)) (fun (j : Fin 4096) (d : Fin 128) => X (ix3 (i 0) j d))
    (fun (d : Fin 128) (e : Fin 64) => W (ix2 d e)) (fun e : Fin 64 => b (ix2 (0 : Fin 1) e))) (i 2)

theorem pay3_idx (v0 : Vec Ideal S1x512x4096 .f32) (y : S1x512x4096.Idx) :
    k0_pay3 v0 y = adjnRow (fun k : Fin 4096 => v0 (ix3 (0 : Fin 1) (y 1) k)) (y 2) := by
  obtain ⟨u, p, q, rfl⟩ : ∃ (u : Fin 1) (p : Fin 512) (q : Fin 4096), y = ix3 u p q := ⟨y 0, y 1, y 2, eq_ix3 y⟩
  exact pay3_at v0 u p q

theorem pay0_idx (v0 : Vec Ideal S1x512x4096 .f32) (v14 : Vec Ideal S1x4096x128 .bf16) (v18 : Vec Ideal S128x128 .bf16) (v21 : Vec Ideal S1x128 .f32)
    (y : S1x512x128.Idx) :
    k0_pay1 (k0_pay4 v0 v14 v18 v21) y
      = rowK (adjnRow fun k : Fin 4096 => v0 (ix3 (0 : Fin 1) (y 1) k)) (fun (j : Fin 4096) (d : Fin 128) => v14 (ix3 (0 : Fin 1) j d))
          (fun (d : Fin 128) (e' : Fin 128) => v18 (ix2 d e')) (fun e' : Fin 128 => v21 (ix2 (0 : Fin 1) e')) (y 2) := by
  obtain ⟨u, p, q, rfl⟩ : ∃ (u : Fin 1) (p : Fin 512) (q : Fin 128), y = ix3 u p q := ⟨y 0, y 1, y 2, eq_ix3 y⟩
  exact pay0_at v0 v14 v18 v21 u p q

theorem pay1_idx (v0 : Vec Ideal S1x512x4096 .bf16) (v2 : Vec Ideal S1x4096x128 .bf16) (v6 : Vec Ideal S128x128 .bf16) (v9 : Vec Ideal S1x128 .f32)
    (y : S1x512x128.Idx) :
    k1_pay1 v0 v2 v6 v9 y
      = rowK (fun k : Fin 4096 => v0 (ix3 (0 : Fin 1) (y 1) k)) (fun (j : Fin 4096) (d : Fin 128) => v2 (ix3 (0 : Fin 1) j d))
          (fun (d : Fin 128) (e' : Fin 128) => v6 (ix2 d e')) (fun e' : Fin 128 => v9 (ix2 (0 : Fin 1) e')) (y 2) := by
  obtain ⟨u, p, q, rfl⟩ : ∃ (u : Fin 1) (p : Fin 512) (q : Fin 128), y = ix3 u p q := ⟨y 0, y 1, y 2, eq_ix3 y⟩
  exact pay1_at v0 v2 v6 v9 u p q

theorem pay2_idx (v0 : Vec Ideal S1x512x4096 .bf16) (v2 : Vec Ideal S1x4096x128 .bf16) (v6 : Vec Ideal S128x64 .bf16) (v9 : Vec Ideal S1x64 .f32)
    (y : S1x512x64.Idx) :
    k2_pay1 v0 v2 v6 v9 y
      = smK (rowK (fun k : Fin 4096 => v0 (ix3 (0 : Fin 1) (y 1) k)) (fun (j : Fin 4096) (d : Fin 128) => v2 (ix3 (0 : Fin 1) j d))
          (fun (d : Fin 128) (e' : Fin 64) => v6 (ix2 d e')) (fun e' : Fin 64 => v9 (ix2 (0 : Fin 1) e'))) (y 2) := by
  obtain ⟨u, p, q, rfl⟩ : ∃ (u : Fin 1) (p : Fin 512) (q : Fin 64), y = ix3 u p q := ⟨y 0, y 1, y 2, eq_ix3 y⟩
  exact pay2k_at v0 v2 v6 v9 u p q

end Cert.Sage.Blocks

end
-- ==== Proof.KBlk0.lean ====
/-
  Region 0 of the program (the first kernel launch), at any contents V of the buffers when the region is entered:
  what each window's block holds at a grid point, what the point writes back, and, because the 32 points' output
  blocks tile the output array (point t covers graph t / 8, rows 512 (t % 8) … 512 (t % 8) + 511), what the whole
  output array ends holding as ONE function of the arrays the region reads.
-/
import proofs.«132532_g79680233276342_cont_9to1_m_150_2_alg».proof.Proof.Gen.KernelIdeal.Frame
import proofs.«132532_g79680233276342_cont_9to1_m_150_2_alg».proof.Proof.KGrid
import Idealize.ShloMosaic.Lib.Pipeline.Value

set_option maxRecDepth 16384

noncomputable section

open scoped BigOperators

namespace Cert.Sage.Blocks

open Cert.KernelIdeal Cert.KernelIdeal.Gen Idealize.ShloMosaic Idealize.ShloMosaic.TcCoe Idealize.SL.Sem Idealize.ShloMosaic.ValueIdx Cert.Sage Cert.Sage.Pay
open Idealize.ShloMosaic.Pipeline (Dat)

variable (V : (c : Dev nD) → (b : Ref sig .tc) → Buf (Elt Ideal) ((c : Thread nD τ).loc b))

/-- The printed index maps, decided over the 32 grid points: the adjacency rows' block and the output block move
    together (graph, row block), the node features' block is the graph's, weights and bias stay. -/
theorem idx0 : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_4.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 3) = win0_4.index t (0 : Fin 3) ∧ win0_5.index t (1 : Fin 3) = win0_4.index t (1 : Fin 3) ∧ win0_5.index t (2 : Fin 3) = 0 :=
  (by decide +kernel : ∀ t : Fin grid0.N, _)

/-- Window 0's block at a point, read at a block index: its array at the block's place. -/
theorem iblk0_0_at (c : Dev nD) (t : Fin cfg0.N) (x : S1x512x4096.Idx) (k : S4x4096x4096.Idx)
    (h0 : (k 0).val = win0_0.index t (0 : Fin 3) * 1 + 1 * (x 0).val) (h1 : (k 1).val = win0_0.index t (1 : Fin 3) * 512 + 1 * (x 1).val) (h2 : (k 2).val = win0_0.index t (2 : Fin 3) * 4096 + 1 * (x 2).val) :
    (iblk0 V c 0 t : Vec Ideal S1x512x4096 .f32) x = (V c main_arg1 : S4x4096x4096.Idx → EReal) k := by
  unfold iblk0
  rw [View.read_apply]
  show V c main_arg1 _ = V c main_arg1 _
  congr 1
  funext a
  apply Fin.ext
  match a with
  | ⟨0, _⟩ => exact h0.symm
  | ⟨1, _⟩ => exact h1.symm
  | ⟨2, _⟩ => exact h2.symm

/-- Window 1's block at a point, read at a block index: its array at the block's place. -/
theorem iblk0_1_at (c : Dev nD) (t : Fin cfg0.N) (x : S1x4096x128.Idx) (k : S4x4096x128.Idx)
    (h0 : (k 0).val = win0_1.index t (0 : Fin 3) * 1 + 1 * (x 0).val) (h1 : (k 1).val = win0_1.index t (1 : Fin 3) * 4096 + 1 * (x 1).val) (h2 : (k 2).val = win0_1.index t (2 : Fin 3) * 128 + 1 * (x 2).val) :
    (iblk0 V c 1 t : Vec Ideal S1x4096x128 .bf16) x = (V c main_v0 : S4x4096x128.Idx → EReal) k := by
  unfold iblk0
  rw [View.read_apply]
  show V c main_v0 _ = V c main_v0 _
  congr 1
  funext a
  apply Fin.ext
  match a with
  | ⟨0, _⟩ => exact h0.symm
  | ⟨1, _⟩ => exact h1.symm
  | ⟨2, _⟩ => exact h2.symm

/-- Window 2's block at a point, read at a block index: its array at the block's place. -/
theorem iblk0_2_at (c : Dev nD) (t : Fin cfg0.N) (x : S128x128.Idx) (k : S128x128.Idx)
    (h0 : (k 0).val = win0_2.index t (0 : Fin 2) * 128 + 1 * (x 0).val) (h1 : (k 1).val = win0_2.index t (1 : Fin 2) * 128 + 1 * (x 1).val) :
    (iblk0 V c 2 t : Vec Ideal S128x128 .bf16) x = (V c main_v1 : S128x128.Idx → EReal) k := by
  unfold iblk0
  rw [View.read_apply]
  show V c main_v1 _ = V c main_v1 _
  congr 1
  funext a
  apply Fin.ext
  match a with
  | ⟨0, _⟩ => exact h0.symm
  | ⟨1, _⟩ => exact h1.symm

/-- Window 3's block at a point, read at a block index: its array at the block's place. -/
theorem iblk0_3_at (c : Dev nD) (t : Fin cfg0.N) (x : S1x128.Idx) (k : S1x128.Idx)
    (h0 : (k 0).val = win0_3.index t (0 : Fin 2) * 1 + 1 * (x 0).val) (h1 : (k 1).val = win0_3.index t (1 : Fin 2) * 128 + 1 * (x 1).val) :
    (iblk0 V c 3 t : Vec Ideal S1x128 .f32) x = (V c main_v4 : S1x128.Idx → EReal) k := by
  unfold iblk0
  rw [View.read_apply]
  show V c main_v4 _ = V c main_v4 _
  congr 1
  funext a
  apply Fin.ext
  match a with
  | ⟨0, _⟩ => exact h0.symm
  | ⟨1, _⟩ => exact h1.symm

/-- WHAT POINT t WRITES BACK into the layer's output array is block t of the layer function of the arrays as the region finds them. -/
theorem flushed0_4 (c : Dev nD) (t : Fin cfg0.N) :
    (dat0 V c).flushed 4 t = ((cfg0.win 4).blk t).view.read (Elt Ideal) (FirstLayer (V c main_arg1) (V c main_v0) (V c main_v1) (V c main_v4)) := by
  show (cfg0.win 4).cut (grid0.coords t) ((dat0 V c).after 4 t) = _
  rw [after0_4]
  unfold out0_4
  rw [View.canon_unit_zero hz3]
  simp only [View.ld_unit_zero (S := S1x512x4096) hz3, View.ld_unit_zero (S := S1x4096x128) hz3, View.ld_unit_zero (S := S128x128) hz2, View.ld_unit_zero (S := S1x128) hz2]
  funext y
  show k0_pay1 (k0_pay4 (iblk0 V c 0 t) (iblk0 V c 1 t) (iblk0 V c 2 t) (iblk0 V c 3 t)) y = FirstLayer (V c main_arg1) (V c main_v0) (V c main_v1) (V c main_v4) (((cfg0.win 4).blk t).view.emb y)
  refine (pay0_idx _ _ _ _ y).trans ?_
  unfold FirstLayer
  obtain ⟨a00, a01, a02, a42, a10, a11, a12, a20, a21, a30, a31, a50, a51, a52⟩ := idx0 t
  have hy0 : (y 0).val < 1 := (y 0).isLt
  have he2 : (((cfg0.win 4).blk t).view.emb y 2) = y 2 :=
    Fin.ext (show win0_4.index t (2 : Fin 3) * 128 + 1 * (y 2).val = (y 2).val by rw [a42]; omega)
  have hA : (fun k : Fin 4096 => (iblk0 V c 0 t : Vec Ideal S1x512x4096 .f32) (ix3 (0 : Fin 1) (y 1) k))
      = fun k : Fin 4096 => (V c main_arg1 : S4x4096x4096.Idx → EReal) (ix3 (((cfg0.win 4).blk t).view.emb y 0) (((cfg0.win 4).blk t).view.emb y 1) k) :=
    funext fun k => iblk0_0_at V c t _ _
      (show win0_4.index t (0 : Fin 3) * 1 + 1 * (y 0).val = win0_0.index t (0 : Fin 3) * 1 + 1 * 0 by rw [a00]; omega)
      (show win0_4.index t (1 : Fin 3) * 512 + 1 * (y 1).val = win0_0.index t (1 : Fin 3) * 512 + 1 * (y 1).val by rw [a01])
      (show k.val = win0_0.index t (2 : Fin 3) * 4096 + 1 * k.val by rw [a02]; omega)
  have hX : (fun (j : Fin 4096) (d : Fin 128) => (iblk0 V c 1 t : Vec Ideal S1x4096x128 .bf16) (ix3 (0 : Fin 1) j d))
      = fun (j : Fin 4096) (d : Fin 128) => (V c main_v0 : S4x4096x128.Idx → EReal) (ix3 (((cfg0.win 4).blk t).view.emb y 0) j d) :=
    funext fun j => funext fun d => iblk0_1_at V c t _ _
      (show win0_4.index t (0 : Fin 3) * 1 + 1 * (y 0).val = win0_1.index t (0 : Fin 3) * 1 + 1 * 0 by rw [a10]; omega)
      (show j.val = win0_1.index t (1 : Fin 3) * 4096 + 1 * j.val by rw [a11]; omega)
      (show d.val = win0_1.index t (2 : Fin 3) * 128 + 1 * d.val by rw [a12]; omega)
  have hW : (fun (d : Fin 128) (e : Fin 128) => (iblk0 V c 2 t : Vec Ideal S128x128 .bf16) (ix2 d e))
      = fun (d : Fin 128) (e : Fin 128) => (V c main_v1 : S128x128.Idx → EReal) (ix2 d e) :=
    funext fun d => funext fun e => iblk0_2_at V c t _ _
      (show d.val = win0_2.index t (0 : Fin 2) * 128 + 1 * d.val by rw [a20]; omega)
      (show e.val = win0_2.index t (1 : Fin 2) * 128 + 1 * e.val by rw [a21]; omega)
  have hb : (fun e : Fin 128 => (iblk0 V c 3 t : Vec Ideal S1x128 .f32) (ix2 (0 : Fin 1) e))
      = fun e : Fin 128 => (V c main_v4 : S1x128.Idx → EReal) (ix2 (0 : Fin 1) e) :=
    funext fun e => iblk0_3_at V c t _ _
      (show 0 = win0_3.index t (0 : Fin 2) * 1 + 1 * 0 by rw [a30])
      (show e.val = win0_3.index t (1 : Fin 2) * 128 + 1 * e.val by rw [a31]; omega)
  rw [hA, hX, hW, hb, he2]

/-- WHAT POINT t WRITES BACK into the normalised-adjacency array is block t of the adjacency with its rows normalised. -/
theorem flushed0_5 (c : Dev nD) (t : Fin cfg0.N) :
    (dat0 V c).flushed 5 t = ((cfg0.win 5).blk t).view.read (Elt Ideal) (NormAdj (V c main_arg1)) := by
  show (cfg0.win 5).cut (grid0.coords t) ((dat0 V c).after 5 t) = _
  rw [after0_5]
  unfold out0_5
  rw [View.canon_unit_zero hz3]
  simp only [View.ld_unit_zero (S := S1x512x4096) hz3]
  funext y
  show k0_pay3 (iblk0 V c 0 t) y = NormAdj (V c main_arg1) (((cfg0.win 5).blk t).view.emb y)
  refine (pay3_idx _ y).trans ?_
  unfold NormAdj
  obtain ⟨a00, a01, a02, a42, a10, a11, a12, a20, a21, a30, a31, a50, a51, a52⟩ := idx0 t
  have hy0 : (y 0).val < 1 := (y 0).isLt
  have he2 : (((cfg0.win 5).blk t).view.emb y 2) = y 2 :=
    Fin.ext (show win0_5.index t (2 : Fin 3) * 4096 + 1 * (y 2).val = (y 2).val by rw [a52]; omega)
  have hA : (fun k : Fin 4096 => (iblk0 V c 0 t : Vec Ideal S1x512x4096 .f32) (ix3 (0 : Fin 1) (y 1) k))
      = fun k : Fin 4096 => (V c main_arg1 : S4x4096x4096.Idx → EReal) (ix3 (((cfg0.win 5).blk t).view.emb y 0) (((cfg0.win 5).blk t).view.emb y 1) k) :=
    funext fun k => iblk0_0_at V c t _ _
      (show win0_5.index t (0 : Fin 3) * 1 + 1 * (y 0).val = win0_0.index t (0 : Fin 3) * 1 + 1 * 0 by rw [a00, a50]; omega)
      (show win0_5.index t (1 : Fin 3) * 512 + 1 * (y 1).val = win0_0.index t (1 : Fin 3) * 512 + 1 * (y 1).val by rw [a01, a51])
      (show k.val = win0_0.index t (2 : Fin 3) * 4096 + 1 * k.val by rw [a02]; omega)
  rw [hA, he2]

/-- Every (graph, row block) is some point's. -/
theorem onto0_4 : ∀ (q0 : Fin 4) (q1 : Fin 8), ∃ t : Fin cfg0.N, win0_4.index t (0 : Fin 3) = q0.val ∧ win0_4.index t (1 : Fin 3) = q1.val :=
  (by decide +kernel : ∀ (q0 : Fin 4) (q1 : Fin 8), ∃ t : Fin grid0.N, _)

/-- An index of the array is in point t's block iff each coordinate is in the block's range on its axis. -/
theorem mem_blk0_4 (t : Fin cfg0.N) (i : S4x4096x128.Idx) :
    i ∈ ((cfg0.win 4).blk t).view.set ↔ ∀ a : Fin 3, win0_4.index t a * S1x512x128.size a ≤ (i a).val ∧ (i a).val < win0_4.index t a * S1x512x128.size a + S1x512x128.size a := by
  show i ∈ ((View.whole main_v7_0).slice (win0_4.rect t)).set ↔ _
  rw [View.set_slice_whole, Rect.mem_set_unit]
  exact Iff.rfl

/-- THE ARRAY after the region: the 32 blocks tile it, so it holds the function everywhere. -/
theorem final0_4 (c : Dev nD) : (dat0 V c).arrAt 4 cfg0.N = FirstLayer (V c main_arg1) (V c main_v0) (V c main_v1) (V c main_v4) :=
  (dat0 V c).arrAt_eq_of_cover 4 (FirstLayer (V c main_arg1) (V c main_v0) (V c main_v1) (V c main_v4)) (fun t _ => flushed0_4 V c t) fun i => by
    have hi0 : (i 0).val < 4 := (i 0).isLt
    have hi1 : (i 1).val < 4096 := (i 1).isLt
    have hi2 : (i 2).val < 128 := (i 2).isLt
    obtain ⟨t, ht0, ht1⟩ := onto0_4 ⟨(i 0).val, hi0⟩ ⟨(i 1).val / 512, by omega⟩
    have ht0' : win0_4.index t (0 : Fin 3) = (i 0).val := ht0
    have ht1' : win0_4.index t (1 : Fin 3) = (i 1).val / 512 := ht1
    obtain ⟨a00, a01, a02, a42, a10, a11, a12, a20, a21, a30, a31, a50, a51, a52⟩ := idx0 t
    refine ⟨t, flush0_4 t, ?_⟩
    rw [mem_blk0_4]
    intro a
    match a with
    | ⟨0, _⟩ =>
      show win0_4.index t (0 : Fin 3) * 1 ≤ (i 0).val ∧ (i 0).val < win0_4.index t (0 : Fin 3) * 1 + 1
      rw [ht0']; omega
    | ⟨1, _⟩ =>
      show win0_4.index t (1 : Fin 3) * 512 ≤ (i 1).val ∧ (i 1).val < win0_4.index t (1 : Fin 3) * 512 + 512
      rw [ht1']; omega
    | ⟨2, _⟩ =>
      show win0_4.index t (2 : Fin 3) * 128 ≤ (i 2).val ∧ (i 2).val < win0_4.index t (2 : Fin 3) * 128 + 128
      rw [a42]; omega

/-- Every (graph, row block) is some point's. -/
theorem onto0_5 : ∀ (q0 : Fin 4) (q1 : Fin 8), ∃ t : Fin cfg0.N, win0_5.index t (0 : Fin 3) = q0.val ∧ win0_5.index t (1 : Fin 3) = q1.val :=
  (by decide +kernel : ∀ (q0 : Fin 4) (q1 : Fin 8), ∃ t : Fin grid0.N, _)

/-- An index of the array is in point t's block iff each coordinate is in the block's range on its axis. -/
theorem mem_blk0_5 (t : Fin cfg0.N) (i : S4x4096x4096.Idx) :
    i ∈ ((cfg0.win 5).blk t).view.set ↔ ∀ a : Fin 3, win0_5.index t a * S1x512x4096.size a ≤ (i a).val ∧ (i a).val < win0_5.index t a * S1x512x4096.size a + S1x512x4096.size a := by
  show i ∈ ((View.whole main_v7_1).slice (win0_5.rect t)).set ↔ _
  rw [View.set_slice_whole, Rect.mem_set_unit]
  exact Iff.rfl

/-- THE ARRAY after the region: the 32 blocks tile it, so it holds the function everywhere. -/
theorem final0_5 (c : Dev nD) : (dat0 V c).arrAt 5 cfg0.N = NormAdj (V c main_arg1) :=
  (dat0 V c).arrAt_eq_of_cover 5 (NormAdj (V c main_arg1)) (fun t _ => flushed0_5 V c t) fun i => by
    have hi0 : (i 0).val < 4 := (i 0).isLt
    have hi1 : (i 1).val < 4096 := (i 1).isLt
    have hi2 : (i 2).val < 4096 := (i 2).isLt
    obtain ⟨t, ht0, ht1⟩ := onto0_5 ⟨(i 0).val, hi0⟩ ⟨(i 1).val / 512, by omega⟩
    have ht0' : win0_5.index t (0 : Fin 3) = (i 0).val := ht0
    have ht1' : win0_5.index t (1 : Fin 3) = (i 1).val / 512 := ht1
    obtain ⟨a00, a01, a02, a42, a10, a11, a12, a20, a21, a30, a31, a50, a51, a52⟩ := idx0 t
    refine ⟨t, flush0_5 t, ?_⟩
    rw [mem_blk0_5]
    intro a
    match a with
    | ⟨0, _⟩ =>
      show win0_5.index t (0 : Fin 3) * 1 ≤ (i 0).val ∧ (i 0).val < win0_5.index t (0 : Fin 3) * 1 + 1
      rw [ht0']; omega
    | ⟨1, _⟩ =>
      show win0_5.index t (1 : Fin 3) * 512 ≤ (i 1).val ∧ (i 1).val < win0_5.index t (1 : Fin 3) * 512 + 512
      rw [ht1']; omega
    | ⟨2, _⟩ =>
      show win0_5.index t (2 : Fin 3) * 4096 ≤ (i 2).val ∧ (i 2).val < win0_5.index t (2 : Fin 3) * 4096 + 4096
      rw [a52]; omega

end Cert.Sage.Blocks

end
-- ==== Proof.KBlk1.lean ====
/-
  Region 1 of the program (the second kernel launch), at any contents V of the buffers when the region is entered:
  what each window's block holds at a grid point, what the point writes back, and, because the 32 points' output
  blocks tile the output array (point t covers graph t / 8, rows 512 (t % 8) … 512 (t % 8) + 511), what the whole
  output array ends holding as ONE function of the arrays the region reads.
-/
import proofs.«132532_g79680233276342_cont_9to1_m_150_2_alg».proof.Proof.Gen.KernelIdeal.Frame
import proofs.«132532_g79680233276342_cont_9to1_m_150_2_alg».proof.Proof.KGrid
import Idealize.ShloMosaic.Lib.Pipeline.Value

set_option maxRecDepth 16384

noncomputable section

open scoped BigOperators

namespace Cert.Sage.Blocks

open Cert.KernelIdeal Cert.KernelIdeal.Gen Idealize.ShloMosaic Idealize.ShloMosaic.TcCoe Idealize.SL.Sem Idealize.ShloMosaic.ValueIdx Cert.Sage Cert.Sage.Pay
open Idealize.ShloMosaic.Pipeline (Dat)

variable (V : (c : Dev nD) → (b : Ref sig .tc) → Buf (Elt Ideal) ((c : Thread nD τ).loc b))

/-- The printed index maps, decided over the 32 grid points: the adjacency rows' block and the output block move
    together (graph, row block), the node features' block is the graph's, weights and bias stay. -/
theorem idx1 : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_4.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Window 0's block at a point, read at a block index: its array at the block's place. -/
theorem iblk1_0_at (c : Dev nD) (t : Fin cfg1.N) (x : S1x512x4096.Idx) (k : S4x4096x4096.Idx)
    (h0 : (k 0).val = win1_0.index t (0 : Fin 3) * 1 + 1 * (x 0).val) (h1 : (k 1).val = win1_0.index t (1 : Fin 3) * 512 + 1 * (x 1).val) (h2 : (k 2).val = win1_0.index t (2 : Fin 3) * 4096 + 1 * (x 2).val) :
    (iblk1 V c 0 t : Vec Ideal S1x512x4096 .bf16) x = (V c main_v7_1 : S4x4096x4096.Idx → EReal) k := by
  unfold iblk1
  rw [View.read_apply]
  show V c main_v7_1 _ = V c main_v7_1 _
  congr 1
  funext a
  apply Fin.ext
  match a with
  | ⟨0, _⟩ => exact h0.symm
  | ⟨1, _⟩ => exact h1.symm
  | ⟨2, _⟩ => exact h2.symm

/-- Window 1's block at a point, read at a block index: its array at the block's place. -/
theorem iblk1_1_at (c : Dev nD) (t : Fin cfg1.N) (x : S1x4096x128.Idx) (k : S4x4096x128.Idx)
    (h0 : (k 0).val = win1_1.index t (0 : Fin 3) * 1 + 1 * (x 0).val) (h1 : (k 1).val = win1_1.index t (1 : Fin 3) * 4096 + 1 * (x 1).val) (h2 : (k 2).val = win1_1.index t (2 : Fin 3) * 128 + 1 * (x 2).val) :
    (iblk1 V c 1 t : Vec Ideal S1x4096x128 .bf16) x = (V c main_v7_0 : S4x4096x128.Idx → EReal) k := by
  unfold iblk1
  rw [View.read_apply]
  show V c main_v7_0 _ = V c main_v7_0 _
  congr 1
  funext a
  apply Fin.ext
  match a with
  | ⟨0, _⟩ => exact h0.symm
  | ⟨1, _⟩ => exact h1.symm
  | ⟨2, _⟩ => exact h2.symm

/-- Window 2's block at a point, read at a block index: its array at the block's place. -/
theorem iblk1_2_at (c : Dev nD) (t : Fin cfg1.N) (x : S128x128.Idx) (k : S128x128.Idx)
    (h0 : (k 0).val = win1_2.index t (0 : Fin 2) * 128 + 1 * (x 0).val) (h1 : (k 1).val = win1_2.index t (1 : Fin 2) * 128 + 1 * (x 1).val) :
    (iblk1 V c 2 t : Vec Ideal S128x128 .bf16) x = (V c main_v2 : S128x128.Idx → EReal) k := by
  unfold iblk1
  rw [View.read_apply]
  show V c main_v2 _ = V c main_v2 _
  congr 1
  funext a
  apply Fin.ext
  match a with
  | ⟨0, _⟩ => exact h0.symm
  | ⟨1, _⟩ => exact h1.symm

/-- Window 3's block at a point, read at a block index: its array at the block's place. -/
theorem iblk1_3_at (c : Dev nD) (t : Fin cfg1.N) (x : S1x128.Idx) (k : S1x128.Idx)
    (h0 : (k 0).val = win1_3.index t (0 : Fin 2) * 1 + 1 * (x 0).val) (h1 : (k 1).val = win1_3.index t (1 : Fin 2) * 128 + 1 * (x 1).val) :
    (iblk1 V c 3 t : Vec Ideal S1x128 .f32) x = (V c main_v5 : S1x128.Idx → EReal) k := by
  unfold iblk1
  rw [View.read_apply]
  show V c main_v5 _ = V c main_v5 _
  congr 1
  funext a
  apply Fin.ext
  match a with
  | ⟨0, _⟩ => exact h0.symm
  | ⟨1, _⟩ => exact h1.symm

/-- WHAT POINT t WRITES BACK into the layer's output array is block t of the layer function of the arrays as the region finds them. -/
theorem flushed1_4 (c : Dev nD) (t : Fin cfg1.N) :
    (dat1 V c).flushed 4 t = ((cfg1.win 4).blk t).view.read (Elt Ideal) (NextLayer (V c main_v7_1) (V c main_v7_0) (V c main_v2) (V c main_v5)) := by
  show (cfg1.win 4).cut (grid1.coords t) ((dat1 V c).after 4 t) = _
  rw [after1_4]
  unfold out1_4
  rw [View.canon_unit_zero hz3]
  simp only [View.ld_unit_zero (S := S1x512x4096) hz3, View.ld_unit_zero (S := S1x4096x128) hz3, View.ld_unit_zero (S := S128x128) hz2, View.ld_unit_zero (S := S1x128) hz2]
  funext y
  show k1_pay1 (iblk1 V c 0 t) (iblk1 V c 1 t) (iblk1 V c 2 t) (iblk1 V c 3 t) y = NextLayer (V c main_v7_1) (V c main_v7_0) (V c main_v2) (V c main_v5) (((cfg1.win 4).blk t).view.emb y)
  refine (pay1_idx _ _ _ _ y).trans ?_
  unfold NextLayer
  obtain ⟨a00, a01, a02, a42, a10, a11, a12, a20, a21, a30, a31⟩ := idx1 t
  have hy0 : (y 0).val < 1 := (y 0).isLt
  have he2 : (((cfg1.win 4).blk t).view.emb y 2) = y 2 :=
    Fin.ext (show win1_4.index t (2 : Fin 3) * 128 + 1 * (y 2).val = (y 2).val by rw [a42]; omega)
  have hA : (fun k : Fin 4096 => (iblk1 V c 0 t : Vec Ideal S1x512x4096 .bf16) (ix3 (0 : Fin 1) (y 1) k))
      = fun k : Fin 4096 => (V c main_v7_1 : S4x4096x4096.Idx → EReal) (ix3 (((cfg1.win 4).blk t).view.emb y 0) (((cfg1.win 4).blk t).view.emb y 1) k) :=
    funext fun k => iblk1_0_at V c t _ _
      (show win1_4.index t (0 : Fin 3) * 1 + 1 * (y 0).val = win1_0.index t (0 : Fin 3) * 1 + 1 * 0 by rw [a00]; omega)
      (show win1_4.index t (1 : Fin 3) * 512 + 1 * (y 1).val = win1_0.index t (1 : Fin 3) * 512 + 1 * (y 1).val by rw [a01])
      (show k.val = win1_0.index t (2 : Fin 3) * 4096 + 1 * k.val by rw [a02]; omega)
  have hX : (fun (j : Fin 4096) (d : Fin 128) => (iblk1 V c 1 t : Vec Ideal S1x4096x128 .bf16) (ix3 (0 : Fin 1) j d))
      = fun (j : Fin 4096) (d : Fin 128) => (V c main_v7_0 : S4x4096x128.Idx → EReal) (ix3 (((cfg1.win 4).blk t).view.emb y 0) j d) :=
    funext fun j => funext fun d => iblk1_1_at V c t _ _
      (show win1_4.index t (0 : Fin 3) * 1 + 1 * (y 0).val = win1_1.index t (0 : Fin 3) * 1 + 1 * 0 by rw [a10]; omega)
      (show j.val = win1_1.index t (1 : Fin 3) * 4096 + 1 * j.val by rw [a11]; omega)
      (show d.val = win1_1.index t (2 : Fin 3) * 128 + 1 * d.val by rw [a12]; omega)
  have hW : (fun (d : Fin 128) (e : Fin 128) => (iblk1 V c 2 t : Vec Ideal S128x128 .bf16) (ix2 d e))
      = fun (d : Fin 128) (e : Fin 128) => (V c main_v2 : S128x128.Idx → EReal) (ix2 d e) :=
    funext fun d => funext fun e => iblk1_2_at V c t _ _
      (show d.val = win1_2.index t (0 : Fin 2) * 128 + 1 * d.val by rw [a20]; omega)
      (show e.val = win1_2.index t (1 : Fin 2) * 128 + 1 * e.val by rw [a21]; omega)
  have hb : (fun e : Fin 128 => (iblk1 V c 3 t : Vec Ideal S1x128 .f32) (ix2 (0 : Fin 1) e))
      = fun e : Fin 128 => (V c main_v5 : S1x128.Idx → EReal) (ix2 (0 : Fin 1) e) :=
    funext fun e => iblk1_3_at V c t _ _
      (show 0 = win1_3.index t (0 : Fin 2) * 1 + 1 * 0 by rw [a30])
      (show e.val = win1_3.index t (1 : Fin 2) * 128 + 1 * e.val by rw [a31]; omega)
  rw [hA, hX, hW, hb, he2]

/-- Every (graph, row block) is some point's. -/
theorem onto1_4 : ∀ (q0 : Fin 4) (q1 : Fin 8), ∃ t : Fin cfg1.N, win1_4.index t (0 : Fin 3) = q0.val ∧ win1_4.index t (1 : Fin 3) = q1.val :=
  (by decide +kernel : ∀ (q0 : Fin 4) (q1 : Fin 8), ∃ t : Fin grid1.N, _)

/-- An index of the array is in point t's block iff each coordinate is in the block's range on its axis. -/
theorem mem_blk1_4 (t : Fin cfg1.N) (i : S4x4096x128.Idx) :
    i ∈ ((cfg1.win 4).blk t).view.set ↔ ∀ a : Fin 3, win1_4.index t a * S1x512x128.size a ≤ (i a).val ∧ (i a).val < win1_4.index t a * S1x512x128.size a + S1x512x128.size a := by
  show i ∈ ((View.whole main_v8).slice (win1_4.rect t)).set ↔ _
  rw [View.set_slice_whole, Rect.mem_set_unit]
  exact Iff.rfl

/-- THE ARRAY after the region: the 32 blocks tile it, so it holds the function everywhere. -/
theorem final1_4 (c : Dev nD) : (dat1 V c).arrAt 4 cfg1.N = NextLayer (V c main_v7_1) (V c main_v7_0) (V c main_v2) (V c main_v5) :=
  (dat1 V c).arrAt_eq_of_cover 4 (NextLayer (V c main_v7_1) (V c main_v7_0) (V c main_v2) (V c main_v5)) (fun t _ => flushed1_4 V c t) fun i => by
    have hi0 : (i 0).val < 4 := (i 0).isLt
    have hi1 : (i 1).val < 4096 := (i 1).isLt
    have hi2 : (i 2).val < 128 := (i 2).isLt
    obtain ⟨t, ht0, ht1⟩ := onto1_4 ⟨(i 0).val, hi0⟩ ⟨(i 1).val / 512, by omega⟩
    have ht0' : win1_4.index t (0 : Fin 3) = (i 0).val := ht0
    have ht1' : win1_4.index t (1 : Fin 3) = (i 1).val / 512 := ht1
    obtain ⟨a00, a01, a02, a42, a10, a11, a12, a20, a21, a30, a31⟩ := idx1 t
    refine ⟨t, flush1_4 t, ?_⟩
    rw [mem_blk1_4]
    intro a
    match a with
    | ⟨0, _⟩ =>
      show win1_4.index t (0 : Fin 3) * 1 ≤ (i 0).val ∧ (i 0).val < win1_4.index t (0 : Fin 3) * 1 + 1
      rw [ht0']; omega
    | ⟨1, _⟩ =>
      show win1_4.index t (1 : Fin 3) * 512 ≤ (i 1).val ∧ (i 1).val < win1_4.index t (1 : Fin 3) * 512 + 512
      rw [ht1']; omega
    | ⟨2, _⟩ =>
      show win1_4.index t (2 : Fin 3) * 128 ≤ (i 2).val ∧ (i 2).val < win1_4.index t (2 : Fin 3) * 128 + 128
      rw [a42]; omega

end Cert.Sage.Blocks

end
-- ==== Proof.KBlk2.lean ====
/-
  Region 2 of the program (the third kernel launch), at any contents V of the buffers when the region is entered:
  what each window's block holds at a grid point, what the point writes back, and, because the 32 points' output
  blocks tile the output array (point t covers graph t / 8, rows 512 (t % 8) … 512 (t % 8) + 511), what the whole
  output array ends holding as ONE function of the arrays the region reads.
-/
import proofs.«132532_g79680233276342_cont_9to1_m_150_2_alg».proof.Proof.Gen.KernelIdeal.Frame
import proofs.«132532_g79680233276342_cont_9to1_m_150_2_alg».proof.Proof.KGrid
import Idealize.ShloMosaic.Lib.Pipeline.Value

set_option maxRecDepth 16384

noncomputable section

open scoped BigOperators

namespace Cert.Sage.Blocks

open Cert.KernelIdeal Cert.KernelIdeal.Gen Idealize.ShloMosaic Idealize.ShloMosaic.TcCoe Idealize.SL.Sem Idealize.ShloMosaic.ValueIdx Cert.Sage Cert.Sage.Pay
open Idealize.ShloMosaic.Pipeline (Dat)

variable (V : (c : Dev nD) → (b : Ref sig .tc) → Buf (Elt Ideal) ((c : Thread nD τ).loc b))

/-- The printed index maps, decided over the 32 grid points: the adjacency rows' block and the output block move
    together (graph, row block), the node features' block is the graph's, weights and bias stay. -/
theorem idx2 : ∀ t : Fin cfg2.N,
    win2_0.index t (0 : Fin 3) = win2_4.index t (0 : Fin 3) ∧ win2_0.index t (1 : Fin 3) = win2_4.index t (1 : Fin 3) ∧ win2_0.index t (2 : Fin 3) = 0
    ∧ win2_4.index t (2 : Fin 3) = 0
    ∧ win2_1.index t (0 : Fin 3) = win2_4.index t (0 : Fin 3) ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Window 0's block at a point, read at a block index: its array at the block's place. -/
theorem iblk2_0_at (c : Dev nD) (t : Fin cfg2.N) (x : S1x512x4096.Idx) (k : S4x4096x4096.Idx)
    (h0 : (k 0).val = win2_0.index t (0 : Fin 3) * 1 + 1 * (x 0).val) (h1 : (k 1).val = win2_0.index t (1 : Fin 3) * 512 + 1 * (x 1).val) (h2 : (k 2).val = win2_0.index t (2 : Fin 3) * 4096 + 1 * (x 2).val) :
    (iblk2 V c 0 t : Vec Ideal S1x512x4096 .bf16) x = (V c main_v7_1 : S4x4096x4096.Idx → EReal) k := by
  unfold iblk2
  rw [View.read_apply]
  show V c main_v7_1 _ = V c main_v7_1 _
  congr 1
  funext a
  apply Fin.ext
  match a with
  | ⟨0, _⟩ => exact h0.symm
  | ⟨1, _⟩ => exact h1.symm
  | ⟨2, _⟩ => exact h2.symm

/-- Window 1's block at a point, read at a block index: its array at the block's place. -/
theorem iblk2_1_at (c : Dev nD) (t : Fin cfg2.N) (x : S1x4096x128.Idx) (k : S4x4096x128.Idx)
    (h0 : (k 0).val = win2_1.index t (0 : Fin 3) * 1 + 1 * (x 0).val) (h1 : (k 1).val = win2_1.index t (1 : Fin 3) * 4096 + 1 * (x 1).val) (h2 : (k 2).val = win2_1.index t (2 : Fin 3) * 128 + 1 * (x 2).val) :
    (iblk2 V c 1 t : Vec Ideal S1x4096x128 .bf16) x = (V c main_v8 : S4x4096x128.Idx → EReal) k := by
  unfold iblk2
  rw [View.read_apply]
  show V c main_v8 _ = V c main_v8 _
  congr 1
  funext a
  apply Fin.ext
  match a with
  | ⟨0, _⟩ => exact h0.symm
  | ⟨1, _⟩ => exact h1.symm
  | ⟨2, _⟩ => exact h2.symm

/-- Window 2's block at a point, read at a block index: its array at the block's place. -/
theorem iblk2_2_at (c : Dev nD) (t : Fin cfg2.N) (x : S128x64.Idx) (k : S128x64.Idx)
    (h0 : (k 0).val = win2_2.index t (0 : Fin 2) * 128 + 1 * (x 0).val) (h1 : (k 1).val = win2_2.index t (1 : Fin 2) * 64 + 1 * (x 1).val) :
    (iblk2 V c 2 t : Vec Ideal S128x64 .bf16) x = (V c main_v3 : S128x64.Idx → EReal) k := by
  unfold iblk2
  rw [View.read_apply]
  show V c main_v3 _ = V c main_v3 _
  congr 1
  funext a
  apply Fin.ext
  match a with
  | ⟨0, _⟩ => exact h0.symm
  | ⟨1, _⟩ => exact h1.symm

/-- Window 3's block at a point, read at a block index: its array at the block's place. -/
theorem iblk2_3_at (c : Dev nD) (t : Fin cfg2.N) (x : S1x64.Idx) (k : S1x64.Idx)
    (h0 : (k 0).val = win2_3.index t (0 : Fin 2) * 1 + 1 * (x 0).val) (h1 : (k 1).val = win2_3.index t (1 : Fin 2) * 64 + 1 * (x 1).val) :
    (iblk2 V c 3 t : Vec Ideal S1x64 .f32) x = (V c main_v6 : S1x64.Idx → EReal) k := by
  unfold iblk2
  rw [View.read_apply]
  show V c main_v6 _ = V c main_v6 _
  congr 1
  funext a
  apply Fin.ext
  match a with
  | ⟨0, _⟩ => exact h0.symm
  | ⟨1, _⟩ => exact h1.symm

/-- WHAT POINT t WRITES BACK into the layer's output array is block t of the layer function of the arrays as the region finds them. -/
theorem flushed2_4 (c : Dev nD) (t : Fin cfg2.N) :
    (dat2 V c).flushed 4 t = ((cfg2.win 4).blk t).view.read (Elt Ideal) (LastLayer (V c main_v7_1) (V c main_v8) (V c main_v3) (V c main_v6)) := by
  show (cfg2.win 4).cut (grid2.coords t) ((dat2 V c).after 4 t) = _
  rw [after2_4]
  unfold out2_4
  rw [View.canon_unit_zero hz3]
  simp only [View.ld_unit_zero (S := S1x512x4096) hz3, View.ld_unit_zero (S := S1x4096x128) hz3, View.ld_unit_zero (S := S128x64) hz2, View.ld_unit_zero (S := S1x64) hz2]
  funext y
  show k2_pay1 (iblk2 V c 0 t) (iblk2 V c 1 t) (iblk2 V c 2 t) (iblk2 V c 3 t) y = LastLayer (V c main_v7_1) (V c main_v8) (V c main_v3) (V c main_v6) (((cfg2.win 4).blk t).view.emb y)
  refine (pay2_idx _ _ _ _ y).trans ?_
  unfold LastLayer
  obtain ⟨a00, a01, a02, a42, a10, a11, a12, a20, a21, a30, a31⟩ := idx2 t
  have hy0 : (y 0).val < 1 := (y 0).isLt
  have he2 : (((cfg2.win 4).blk t).view.emb y 2) = y 2 :=
    Fin.ext (show win2_4.index t (2 : Fin 3) * 64 + 1 * (y 2).val = (y 2).val by rw [a42]; omega)
  have hA : (fun k : Fin 4096 => (iblk2 V c 0 t : Vec Ideal S1x512x4096 .bf16) (ix3 (0 : Fin 1) (y 1) k))
      = fun k : Fin 4096 => (V c main_v7_1 : S4x4096x4096.Idx → EReal) (ix3 (((cfg2.win 4).blk t).view.emb y 0) (((cfg2.win 4).blk t).view.emb y 1) k) :=
    funext fun k => iblk2_0_at V c t _ _
      (show win2_4.index t (0 : Fin 3) * 1 + 1 * (y 0).val = win2_0.index t (0 : Fin 3) * 1 + 1 * 0 by rw [a00]; omega)
      (show win2_4.index t (1 : Fin 3) * 512 + 1 * (y 1).val = win2_0.index t (1 : Fin 3) * 512 + 1 * (y 1).val by rw [a01])
      (show k.val = win2_0.index t (2 : Fin 3) * 4096 + 1 * k.val by rw [a02]; omega)
  have hX : (fun (j : Fin 4096) (d : Fin 128) => (iblk2 V c 1 t : Vec Ideal S1x4096x128 .bf16) (ix3 (0 : Fin 1) j d))
      = fun (j : Fin 4096) (d : Fin 128) => (V c main_v8 : S4x4096x128.Idx → EReal) (ix3 (((cfg2.win 4).blk t).view.emb y 0) j d) :=
    funext fun j => funext fun d => iblk2_1_at V c t _ _
      (show win2_4.index t (0 : Fin 3) * 1 + 1 * (y 0).val = win2_1.index t (0 : Fin 3) * 1 + 1 * 0 by rw [a10]; omega)
      (show j.val = win2_1.index t (1 : Fin 3) * 4096 + 1 * j.val by rw [a11]; omega)
      (show d.val = win2_1.index t (2 : Fin 3) * 128 + 1 * d.val by rw [a12]; omega)
  have hW : (fun (d : Fin 128) (e : Fin 64) => (iblk2 V c 2 t : Vec Ideal S128x64 .bf16) (ix2 d e))
      = fun (d : Fin 128) (e : Fin 64) => (V c main_v3 : S128x64.Idx → EReal) (ix2 d e) :=
    funext fun d => funext fun e => iblk2_2_at V c t _ _
      (show d.val = win2_2.index t (0 : Fin 2) * 128 + 1 * d.val by rw [a20]; omega)
      (show e.val = win2_2.index t (1 : Fin 2) * 64 + 1 * e.val by rw [a21]; omega)
  have hb : (fun e : Fin 64 => (iblk2 V c 3 t : Vec Ideal S1x64 .f32) (ix2 (0 : Fin 1) e))
      = fun e : Fin 64 => (V c main_v6 : S1x64.Idx → EReal) (ix2 (0 : Fin 1) e) :=
    funext fun e => iblk2_3_at V c t _ _
      (show 0 = win2_3.index t (0 : Fin 2) * 1 + 1 * 0 by rw [a30])
      (show e.val = win2_3.index t (1 : Fin 2) * 64 + 1 * e.val by rw [a31]; omega)
  rw [hA, hX, hW, hb, he2]

/-- Every (graph, row block) is some point's. -/
theorem onto2_4 : ∀ (q0 : Fin 4) (q1 : Fin 8), ∃ t : Fin cfg2.N, win2_4.index t (0 : Fin 3) = q0.val ∧ win2_4.index t (1 : Fin 3) = q1.val :=
  (by decide +kernel : ∀ (q0 : Fin 4) (q1 : Fin 8), ∃ t : Fin grid2.N, _)

/-- An index of the array is in point t's block iff each coordinate is in the block's range on its axis. -/
theorem mem_blk2_4 (t : Fin cfg2.N) (i : S4x4096x64.Idx) :
    i ∈ ((cfg2.win 4).blk t).view.set ↔ ∀ a : Fin 3, win2_4.index t a * S1x512x64.size a ≤ (i a).val ∧ (i a).val < win2_4.index t a * S1x512x64.size a + S1x512x64.size a := by
  show i ∈ ((View.whole main_v9).slice (win2_4.rect t)).set ↔ _
  rw [View.set_slice_whole, Rect.mem_set_unit]
  exact Iff.rfl

/-- THE ARRAY after the region: the 32 blocks tile it, so it holds the function everywhere. -/
theorem final2_4 (c : Dev nD) : (dat2 V c).arrAt 4 cfg2.N = LastLayer (V c main_v7_1) (V c main_v8) (V c main_v3) (V c main_v6) :=
  (dat2 V c).arrAt_eq_of_cover 4 (LastLayer (V c main_v7_1) (V c main_v8) (V c main_v3) (V c main_v6)) (fun t _ => flushed2_4 V c t) fun i => by
    have hi0 : (i 0).val < 4 := (i 0).isLt
    have hi1 : (i 1).val < 4096 := (i 1).isLt
    have hi2 : (i 2).val < 64 := (i 2).isLt
    obtain ⟨t, ht0, ht1⟩ := onto2_4 ⟨(i 0).val, hi0⟩ ⟨(i 1).val / 512, by omega⟩
    have ht0' : win2_4.index t (0 : Fin 3) = (i 0).val := ht0
    have ht1' : win2_4.index t (1 : Fin 3) = (i 1).val / 512 := ht1
    obtain ⟨a00, a01, a02, a42, a10, a11, a12, a20, a21, a30, a31⟩ := idx2 t
    refine ⟨t, flush2_4 t, ?_⟩
    rw [mem_blk2_4]
    intro a
    match a with
    | ⟨0, _⟩ =>
      show win2_4.index t (0 : Fin 3) * 1 ≤ (i 0).val ∧ (i 0).val < win2_4.index t (0 : Fin 3) * 1 + 1
      rw [ht0']; omega
    | ⟨1, _⟩ =>
      show win2_4.index t (1 : Fin 3) * 512 ≤ (i 1).val ∧ (i 1).val < win2_4.index t (1 : Fin 3) * 512 + 512
      rw [ht1']; omega
    | ⟨2, _⟩ =>
      show win2_4.index t (2 : Fin 3) * 64 ≤ (i 2).val ∧ (i 2).val < win2_4.index t (2 : Fin 3) * 64 + 64
      rw [a42]; omega

end Cert.Sage.Blocks

end
-- ==== Proof.KValue.lean ====
/-
  The idealized kernel program's result array as one function of its argument arrays.

  The host lines before the first launch only change float formats (the identity on extended reals) and view each
  bias vector as a one-row matrix.  The first launch leaves the normalised adjacency and the first layer's output,
  the second launch the second layer's output from those two, the third the last layer's output with its row softmax.
  Composed: the result at (b, r, e) is the network of the specification (netK) on graph b, at row r and column e.
-/
import proofs.«132532_g79680233276342_cont_9to1_m_150_2_alg».proof.Proof.KRun
import proofs.«132532_g79680233276342_cont_9to1_m_150_2_alg».proof.Proof.KBlk0
import proofs.«132532_g79680233276342_cont_9to1_m_150_2_alg».proof.Proof.KBlk1
import proofs.«132532_g79680233276342_cont_9to1_m_150_2_alg».proof.Proof.KBlk2
import Idealize.ShloMosaic.Lib.StableHlo.Run

set_option maxRecDepth 16384

noncomputable section

open scoped BigOperators

namespace Cert.Sage.Value

open Cert.KernelIdeal Cert.KernelIdeal.Gen Idealize.ShloMosaic Idealize.ShloMosaic.TcCoe Idealize.SL.Sem Idealize.ShloMosaic.ValueIdx
open Cert.Sage Cert.Sage.Pay Cert.Sage.Blocks Idealize.ShloMosaic.StableHlo
open Idealize.ShloMosaic.Pipeline (Dat)

variable (m : (ℓ : Loc nD τ sig) → Buf (Elt Ideal) ℓ) (ρ : Dev nD → PrngReg)

/-- The network on every graph: the result array the kernel program should end with. -/
def Kout (x0 : S4x4096x128.Idx → EReal) (x1 : S4x4096x4096.Idx → EReal) (x2 : S128x128.Idx → EReal) (x3 : S128.Idx → EReal)
    (x4 : S128x128.Idx → EReal) (x5 : S128.Idx → EReal) (x6 : S128x64.Idx → EReal) (x7 : S64.Idx → EReal) : S4x4096x64.Idx → EReal :=
  fun i => netK (fun (r j : Fin 4096) => x1 (ix3 (i 0) r j)) (fun (j : Fin 4096) (d : Fin 128) => x0 (ix3 (i 0) j d))
    (fun (d e : Fin 128) => x2 (ix2 d e)) (fun e : Fin 128 => x3 (ix1 e)) (fun (d e : Fin 128) => x4 (ix2 d e)) (fun e : Fin 128 => x5 (ix1 e))
    (fun (d : Fin 128) (e : Fin 64) => x6 (ix2 d e)) (fun e : Fin 64 => x7 (ix1 e)) (i 1) (i 2)

/-! ## The host lines before the first launch -/

theorem h_arg1 (c : Dev nD) : V1 m ρ c main_arg1 = m ((c : Thread nD τ).loc main_arg1) := by
  show StableHlo.after hostOps0 (W0 m ρ c) (Proc.devRef .tc main_arg1) = _
  after_results
theorem h_v0 (c : Dev nD) : (V1 m ρ c main_v0 : S4x4096x128.Idx → EReal) = (m ((c : Thread nD τ).loc main_arg0) : S4x4096x128.Idx → EReal) := by
  show StableHlo.after hostOps0 (W0 m ρ c) (Proc.devRef .tc main_v0) = _
  after_results; rfl
theorem h_v1 (c : Dev nD) : (V1 m ρ c main_v1 : S128x128.Idx → EReal) = (m ((c : Thread nD τ).loc main_arg2) : S128x128.Idx → EReal) := by
  show StableHlo.after hostOps0 (W0 m ρ c) (Proc.devRef .tc main_v1) = _
  after_results; rfl
theorem h_v2 (c : Dev nD) : (V1 m ρ c main_v2 : S128x128.Idx → EReal) = (m ((c : Thread nD τ).loc main_arg4) : S128x128.Idx → EReal) := by
  show StableHlo.after hostOps0 (W0 m ρ c) (Proc.devRef .tc main_v2) = _
  after_results; rfl
theorem h_v3 (c : Dev nD) : (V1 m ρ c main_v3 : S128x64.Idx → EReal) = (m ((c : Thread nD τ).loc main_arg6) : S128x64.Idx → EReal) := by
  show StableHlo.after hostOps0 (W0 m ρ c) (Proc.devRef .tc main_v3) = _
  after_results; rfl
theorem h_v4 (c : Dev nD) : (V1 m ρ c main_v4 : S1x128.Idx → EReal)
    = shapeCast S1x128 (m ((c : Thread nD τ).loc main_arg3) : S128.Idx → EReal) shapeCasts_S128_S1x128 := by
  show StableHlo.after hostOps0 (W0 m ρ c) (Proc.devRef .tc main_v4) = _
  after_results; rfl
theorem h_v5 (c : Dev nD) : (V1 m ρ c main_v5 : S1x128.Idx → EReal)
    = shapeCast S1x128 (m ((c : Thread nD τ).loc main_arg5) : S128.Idx → EReal) shapeCasts_S128_S1x128 := by
  show StableHlo.after hostOps0 (W0 m ρ c) (Proc.devRef .tc main_v5) = _
  after_results; rfl
theorem h_v6 (c : Dev nD) : (V1 m ρ c main_v6 : S1x64.Idx → EReal)
    = shapeCast S1x64 (m ((c : Thread nD τ).loc main_arg7) : S64.Idx → EReal) shapeCasts_S64_S1x64 := by
  show StableHlo.after hostOps0 (W0 m ρ c) (Proc.devRef .tc main_v6) = _
  after_results; rfl

/-! ## The arrays between the launches -/

/-- After the first launch: the normalised adjacency. -/
theorem a_adjn2 (c : Dev nD) : V2 m ρ c main_v7_1 = NormAdj (m ((c : Thread nD τ).loc main_arg1)) :=
  ((hF0 m ρ c 5).symm.trans (final0_5 (V1 m ρ) c)).trans (congrArg NormAdj (h_arg1 m ρ c))

/-- After the first launch: the first layer's output. -/
theorem a_h1 (c : Dev nD) : V2 m ρ c main_v7_0
    = FirstLayer (m ((c : Thread nD τ).loc main_arg1)) (V1 m ρ c main_v0) (V1 m ρ c main_v1) (V1 m ρ c main_v4) :=
  ((hF0 m ρ c 4).symm.trans (final0_4 (V1 m ρ) c)).trans (by rw [h_arg1])

theorem a_v2 (c : Dev nD) : V2 m ρ c main_v2 = V1 m ρ c main_v2 := W2_of_ne m ρ c main_v2 (by decide)
theorem a_v5 (c : Dev nD) : V2 m ρ c main_v5 = V1 m ρ c main_v5 := W2_of_ne m ρ c main_v5 (by decide)
theorem a_v3 (c : Dev nD) : V3 m ρ c main_v3 = V1 m ρ c main_v3 :=
  (W3_of_ne m ρ c main_v3 (by decide)).trans (W2_of_ne m ρ c main_v3 (by decide))
theorem a_v6 (c : Dev nD) : V3 m ρ c main_v6 = V1 m ρ c main_v6 :=
  (W3_of_ne m ρ c main_v6 (by decide)).trans (W2_of_ne m ρ c main_v6 (by decide))

/-- The second launch only reads the normalised adjacency. -/
theorem a_adjn3 (c : Dev nD) : V3 m ρ c main_v7_1 = V2 m ρ c main_v7_1 :=
  (hF1 m ρ c 0).symm.trans (((dat1 (V2 m ρ) c).arrAt_in 0 rfl _).trans (A_eq1 (V2 m ρ) c 0))

/-- After the second launch: the second layer's output. -/
theorem a_h2 (c : Dev nD) : V3 m ρ c main_v8
    = NextLayer (V2 m ρ c main_v7_1) (V2 m ρ c main_v7_0) (V2 m ρ c main_v2) (V2 m ρ c main_v5) :=
  (hF1 m ρ c 4).symm.trans (final1_4 (V2 m ρ) c)

/-- After the third launch: the result. -/
theorem a_out (c : Dev nD) : W4 m ρ c (Proc.devRef .tc main_v9)
    = LastLayer (V3 m ρ c main_v7_1) (V3 m ρ c main_v8) (V3 m ρ c main_v3) (V3 m ρ c main_v6) :=
  (W4_arr m ρ c 4).trans (final2_4 (V3 m ρ) c)

/-- A bias vector viewed as a one-row matrix reads the vector. -/
theorem bias_row {a : ℕ} (x : (⟨1, ![a]⟩ : Shape).Idx → EReal) (h : (⟨1, ![a]⟩ : Shape).ShapeCasts ⟨2, ![1, a]⟩) :
    (fun e : Fin a => shapeCast ⟨2, ![1, a]⟩ x h (ix2 (0 : Fin 1) e)) = fun e : Fin a => x (ix1 e) :=
  funext fun e => shapeCast_a_1a_apply x h 0 e

/-- THE RESULT: the network of the specification on every graph. -/
theorem result_eq (c : Dev nD) : W4 m ρ c (Proc.devRef .tc main_v9)
    = Kout (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  rw [a_out, a_adjn3, a_h2, a_v3, a_v6, a_adjn2, a_h1, a_v2, a_v5, h_v0, h_v1, h_v2, h_v3, h_v4, h_v5, h_v6]
  funext i
  unfold LastLayer NextLayer FirstLayer NormAdj Kout netK
  simp only [bias_row]
  rfl

/-- The run of the idealized kernel program with its result at the specification's network. -/
theorem run : θ_run defs (onTc (τ := τ) (main (F := Ideal))) ⟨m, fun _ => 0, ρ⟩ (fun r => ∀ c : Dev nD,
      r.2.mem ((c.tc : Thread nD τ).loc main_v9)
        = Kout (m ((c : Thread nD τ).loc main_arg0)) (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.Sage.Run.run_main m ρ)

end Cert.Sage.Value

end
-- ==== Proof.RefL1.lean ====
/-
  The reference program's first layer, read at an index: each stage of the printed program at (b, r, e) is the
  corresponding function of the specification applied to graph b's adjacency and features.
-/
import proofs.«132532_g79680233276342_cont_9to1_m_150_2_alg».proof.Proof.RefRead
import proofs.«132532_g79680233276342_cont_9to1_m_150_2_alg».proof.Proof.Spec

noncomputable section

open scoped BigOperators

namespace Cert.Sage.Ref

open Cert.ReferenceIdeal Cert.ReferenceIdeal.ReadP Idealize.ShloMosaic Idealize.ShloMosaic.ValueIdx

variable (x0 : (⟨S4x4096x128, .f32⟩ : BufTy).Contents (Elt Ideal)) (x1 : (⟨S4x4096x4096, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-! ## Layer 1: the clamped degree, the mean aggregation, the linear map, the clamped norm, the activation -/

/-- The clamped degree of row `r` of graph `b`: the zero literal plus the row sum, clamped from below. -/
theorem deg1 (b : Fin 4) (r : Fin 4096) :
    val_main_v3 (F := Ideal) x1 (ix3 b r (0 : Fin 1)) = degR (fun j => x1 (ix3 b r j)) := by
  have e2 : idx_main_v2 (ix3 b r (0 : Fin 1)) = ix2 b r := funext fun a => Fin.ext (by match a with | ⟨0, _⟩ => rfl | ⟨1, _⟩ => rfl)
  have e1 : ∀ k, idx_main_v1 (ix2 b r) k = ix3 b r k := fun k => funext fun a => Fin.ext (by match a with | ⟨0, _⟩ => rfl | ⟨1, _⟩ => rfl | ⟨2, _⟩ => rfl)
  rw [val_main_v3_apply, val_main_call0_v1_apply, val_main_call0_v0_apply, val_main_cst_0_apply, val_main_v2_apply, e2,
    val_main_v1_apply, val_main_cst_apply]
  simp only [e1, Ideal.maximumf_def, Ideal.ofBits_def]
  rfl

/-- The neighbour sum divided by the clamped degree. -/
theorem agg1 (b : Fin 4) (r : Fin 4096) (d : Fin 128) :
    val_main_v5 (F := Ideal) x0 x1 (ix3 b r d) = aggR (fun i j => x1 (ix3 b i j)) (fun j d' => x0 (ix3 b j d')) r d := by
  have e4 : idx_main_v4 (ix3 b r d) = ix3 b r (0 : Fin 1) := funext fun a => Fin.ext (by match a with | ⟨0, _⟩ => rfl | ⟨1, _⟩ => rfl | ⟨2, _⟩ => rfl)
  have el : ∀ k, lidx_main_v0 (ix3 b r d) k = ix3 b r k := fun k => funext fun a => Fin.ext (by match a with | ⟨0, _⟩ => rfl | ⟨1, _⟩ => rfl | ⟨2, _⟩ => rfl)
  have er : ∀ k, ridx_main_v0 (ix3 b r d) k = ix3 b k d := fun k => funext fun a => Fin.ext (by match a with | ⟨0, _⟩ => rfl | ⟨1, _⟩ => rfl | ⟨2, _⟩ => rfl)
  rw [val_main_v5_apply, val_main_v4_apply, e4, deg1, val_main_v0_apply]
  simp only [el, er, Ideal.hostDivf_def]
  rfl

/-- The linear map with its bias, applied to the aggregated features. -/
theorem lin1 (b : Fin 4) (r : Fin 4096) (e : Fin 128) :
    val_main_v9 (F := Ideal) x0 x1 x2 x3 (ix3 b r e) = linOf (aggR (fun i j => x1 (ix3 b i j)) (fun j d' => x0 (ix3 b j d'))) (fun d e' => x2 (ix2 d e')) (fun e' => x3 (ix1 e')) r e := by
  have el : ∀ k, lidx_main_v6 (ix3 b r e) k = ix3 b r k := fun k => funext fun a => Fin.ext (by match a with | ⟨0, _⟩ => rfl | ⟨1, _⟩ => rfl | ⟨2, _⟩ => rfl)
  have er : ∀ k, ridx_main_v6 (ix3 b r e) k = ix2 k e := fun k => funext fun a => Fin.ext (by match a with | ⟨0, _⟩ => rfl | ⟨1, _⟩ => rfl)
  have e8 : idx_main_v7 (idx_main_v8 (ix3 b r e)) = ix1 e := funext fun a => Fin.ext (by match a with | ⟨0, _⟩ => rfl)
  rw [val_main_v9_apply, val_main_v6_apply, val_main_v8_apply, val_main_v7_apply, e8]
  simp only [el, er, agg1, Ideal.addf_def]
  rfl

/-- The clamped Euclidean norm of row `r` after the linear map. -/
theorem nrm1 (b : Fin 4) (r : Fin 4096) :
    val_main_v11 (F := Ideal) x0 x1 x2 x3 (ix3 b r (0 : Fin 1)) = nrmR (linOf (aggR (fun i j => x1 (ix3 b i j)) (fun j d' => x0 (ix3 b j d'))) (fun d e' => x2 (ix2 d e')) (fun e' => x3 (ix1 e')) r) := by
  have e2 : idx_main_call1_v2 (ix3 b r (0 : Fin 1)) = ix2 b r := funext fun a => Fin.ext (by match a with | ⟨0, _⟩ => rfl | ⟨1, _⟩ => rfl)
  have e1 : ∀ k, idx_main_call1_v1 (ix2 b r) k = ix3 b r k := fun k => funext fun a => Fin.ext (by match a with | ⟨0, _⟩ => rfl | ⟨1, _⟩ => rfl | ⟨2, _⟩ => rfl)
  rw [val_main_v11_apply, val_main_call2_v1_apply, val_main_call2_v0_apply, val_main_cst_1_apply, val_main_v10_apply,
    val_main_call1_v2_apply, e2, val_main_call1_v1_apply, val_main_call1_cst_apply]
  simp only [e1, val_main_call1_v0_apply, lin1, Ideal.maximumf_def, Ideal.hostUnary_sqrt_def, Ideal.mulf_def, Ideal.ofBits_def]
  rfl

/-- Layer 1 at node `r`, coordinate `e`. -/
theorem layer1 (b : Fin 4) (r : Fin 4096) (e : Fin 128) :
    val_main_v14 (F := Ideal) x0 x1 x2 x3 (ix3 b r e) = layerR (fun i j => x1 (ix3 b i j)) (fun j d' => x0 (ix3 b j d')) (fun d e' => x2 (ix2 d e')) (fun e' => x3 (ix1 e')) r e := by
  have e12 : idx_main_v12 (ix3 b r e) = ix3 b r (0 : Fin 1) := funext fun a => Fin.ext (by match a with | ⟨0, _⟩ => rfl | ⟨1, _⟩ => rfl | ⟨2, _⟩ => rfl)
  rw [val_main_v14_apply, val_main_call3_v0_apply, val_main_call3_cst_apply, val_main_v13_apply, val_main_v12_apply, e12,
    nrm1, lin1]
  simp only [Ideal.maximumf_def, Ideal.hostDivf_def, Ideal.ofBits_def]
  rfl

end Cert.Sage.Ref

end
-- ==== Proof.RefL2.lean ====
/-
  The reference program's second layer, read at an index, as a function of the first layer's output stage.
-/
import proofs.«132532_g79680233276342_cont_9to1_m_150_2_alg».proof.Proof.RefRead
import proofs.«132532_g79680233276342_cont_9to1_m_150_2_alg».proof.Proof.Spec

noncomputable section

open scoped BigOperators

namespace Cert.Sage.Ref

open Cert.ReferenceIdeal Cert.ReferenceIdeal.ReadP Idealize.ShloMosaic Idealize.ShloMosaic.ValueIdx

variable (x0 : (⟨S4x4096x128, .f32⟩ : BufTy).Contents (Elt Ideal)) (x1 : (⟨S4x4096x4096, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-! ## Layer 2: the clamped degree, the mean aggregation, the linear map, the clamped norm, the activation -/

/-- The clamped degree of row `r` of graph `b`: the zero literal plus the row sum, clamped from below. -/
theorem deg2 (b : Fin 4) (r : Fin 4096) :
    val_main_v18 (F := Ideal) x1 (ix3 b r (0 : Fin 1)) = degR (fun j => x1 (ix3 b r j)) := by
  have e2 : idx_main_v17 (ix3 b r (0 : Fin 1)) = ix2 b r := funext fun a => Fin.ext (by match a with | ⟨0, _⟩ => rfl | ⟨1, _⟩ => rfl)
  have e1 : ∀ k, idx_main_v16 (ix2 b r) k = ix3 b r k := fun k => funext fun a => Fin.ext (by match a with | ⟨0, _⟩ => rfl | ⟨1, _⟩ => rfl | ⟨2, _⟩ => rfl)
  rw [val_main_v18_apply, val_main_call4_v1_apply, val_main_call4_v0_apply, val_main_cst_3_apply, val_main_v17_apply, e2,
    val_main_v16_apply, val_main_cst_2_apply]
  simp only [e1, Ideal.maximumf_def, Ideal.ofBits_def]
  rfl

/-- The neighbour sum divided by the clamped degree. -/
theorem agg2 (b : Fin 4) (r : Fin 4096) (d : Fin 128) :
    val_main_v20 (F := Ideal) x0 x1 x2 x3 (ix3 b r d) = aggR (fun i j => x1 (ix3 b i j)) (fun j d' => val_main_v14 (F := Ideal) x0 x1 x2 x3 (ix3 b j d')) r d := by
  have e4 : idx_main_v19 (ix3 b r d) = ix3 b r (0 : Fin 1) := funext fun a => Fin.ext (by match a with | ⟨0, _⟩ => rfl | ⟨1, _⟩ => rfl | ⟨2, _⟩ => rfl)
  have el : ∀ k, lidx_main_v15 (ix3 b r d) k = ix3 b r k := fun k => funext fun a => Fin.ext (by match a with | ⟨0, _⟩ => rfl | ⟨1, _⟩ => rfl | ⟨2, _⟩ => rfl)
  have er : ∀ k, ridx_main_v15 (ix3 b r d) k = ix3 b k d := fun k => funext fun a => Fin.ext (by match a with | ⟨0, _⟩ => rfl | ⟨1, _⟩ => rfl | ⟨2, _⟩ => rfl)
  rw [val_main_v20_apply, val_main_v19_apply, e4, deg2, val_main_v15_apply]
  simp only [el, er, Ideal.hostDivf_def]
  generalize val_main_v14 (F := Ideal) x0 x1 x2 x3 = y
  rfl

/-- The linear map with its bias, applied to the aggregated features. -/
theorem lin2 (b : Fin 4) (r : Fin 4096) (e : Fin 128) :
    val_main_v24 (F := Ideal) x0 x1 x2 x3 x4 x5 (ix3 b r e) = linOf (aggR (fun i j => x1 (ix3 b i j)) (fun j d' => val_main_v14 (F := Ideal) x0 x1 x2 x3 (ix3 b j d'))) (fun d e' => x4 (ix2 d e')) (fun e' => x5 (ix1 e')) r e := by
  have el : ∀ k, lidx_main_v21 (ix3 b r e) k = ix3 b r k := fun k => funext fun a => Fin.ext (by match a with | ⟨0, _⟩ => rfl | ⟨1, _⟩ => rfl | ⟨2, _⟩ => rfl)
  have er : ∀ k, ridx_main_v21 (ix3 b r e) k = ix2 k e := fun k => funext fun a => Fin.ext (by match a with | ⟨0, _⟩ => rfl | ⟨1, _⟩ => rfl)
  have e8 : idx_main_v22 (idx_main_v23 (ix3 b r e)) = ix1 e := funext fun a => Fin.ext (by match a with | ⟨0, _⟩ => rfl)
  rw [val_main_v24_apply, val_main_v21_apply, val_main_v23_apply, val_main_v22_apply, e8]
  simp only [el, er, agg2, Ideal.addf_def]
  generalize val_main_v14 (F := Ideal) x0 x1 x2 x3 = y
  rfl

/-- The clamped Euclidean norm of row `r` after the linear map. -/
theorem nrm2 (b : Fin 4) (r : Fin 4096) :
    val_main_v26 (F := Ideal) x0 x1 x2 x3 x4 x5 (ix3 b r (0 : Fin 1)) = nrmR (linOf (aggR (fun i j => x1 (ix3 b i j)) (fun j d' => val_main_v14 (F := Ideal) x0 x1 x2 x3 (ix3 b j d'))) (fun d e' => x4 (ix2 d e')) (fun e' => x5 (ix1 e')) r) := by
  have e2 : idx_main_call5_v2 (ix3 b r (0 : Fin 1)) = ix2 b r := funext fun a => Fin.ext (by match a with | ⟨0, _⟩ => rfl | ⟨1, _⟩ => rfl)
  have e1 : ∀ k, idx_main_call5_v1 (ix2 b r) k = ix3 b r k := fun k => funext fun a => Fin.ext (by match a with | ⟨0, _⟩ => rfl | ⟨1, _⟩ => rfl | ⟨2, _⟩ => rfl)
  rw [val_main_v26_apply, val_main_call6_v1_apply, val_main_call6_v0_apply, val_main_cst_4_apply, val_main_v25_apply,
    val_main_call5_v2_apply, e2, val_main_call5_v1_apply, val_main_call5_cst_apply]
  simp only [e1, val_main_call5_v0_apply, lin2, Ideal.maximumf_def, Ideal.hostUnary_sqrt_def, Ideal.mulf_def, Ideal.ofBits_def]
  generalize val_main_v14 (F := Ideal) x0 x1 x2 x3 = y
  rfl

/-- Layer 2 at node `r`, coordinate `e`. -/
theorem layer2 (b : Fin 4) (r : Fin 4096) (e : Fin 128) :
    val_main_v29 (F := Ideal) x0 x1 x2 x3 x4 x5 (ix3 b r e) = layerR (fun i j => x1 (ix3 b i j)) (fun j d' => val_main_v14 (F := Ideal) x0 x1 x2 x3 (ix3 b j d')) (fun d e' => x4 (ix2 d e')) (fun e' => x5 (ix1 e')) r e := by
  have e12 : idx_main_v27 (ix3 b r e) = ix3 b r (0 : Fin 1) := funext fun a => Fin.ext (by match a with | ⟨0, _⟩ => rfl | ⟨1, _⟩ => rfl | ⟨2, _⟩ => rfl)
  rw [val_main_v29_apply, val_main_call7_v0_apply, val_main_call7_cst_apply, val_main_v28_apply, val_main_v27_apply, e12,
    nrm2, lin2]
  simp only [Ideal.maximumf_def, Ideal.hostDivf_def, Ideal.ofBits_def]
  generalize val_main_v14 (F := Ideal) x0 x1 x2 x3 = y
  rfl

end Cert.Sage.Ref

end
-- ==== Proof.RefL3.lean ====
/-
  The reference program's third layer, read at an index, as a function of the second layer's output stage.
-/
import proofs.«132532_g79680233276342_cont_9to1_m_150_2_alg».proof.Proof.RefRead
import proofs.«132532_g79680233276342_cont_9to1_m_150_2_alg».proof.Proof.Spec

noncomputable section

open scoped BigOperators

namespace Cert.Sage.Ref

open Cert.ReferenceIdeal Cert.ReferenceIdeal.ReadP Idealize.ShloMosaic Idealize.ShloMosaic.ValueIdx

variable (x0 : (⟨S4x4096x128, .f32⟩ : BufTy).Contents (Elt Ideal)) (x1 : (⟨S4x4096x4096, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-! ## Layer 3: the clamped degree, the mean aggregation, the linear map, the clamped norm, the activation -/

/-- The clamped degree of row `r` of graph `b`: the zero literal plus the row sum, clamped from below. -/
theorem deg3 (b : Fin 4) (r : Fin 4096) :
    val_main_v33 (F := Ideal) x1 (ix3 b r (0 : Fin 1)) = degR (fun j => x1 (ix3 b r j)) := by
  have e2 : idx_main_v32 (ix3 b r (0 : Fin 1)) = ix2 b r := funext fun a => Fin.ext (by match a with | ⟨0, _⟩ => rfl | ⟨1, _⟩ => rfl)
  have e1 : ∀ k, idx_main_v31 (ix2 b r) k = ix3 b r k := fun k => funext fun a => Fin.ext (by match a with | ⟨0, _⟩ => rfl | ⟨1, _⟩ => rfl | ⟨2, _⟩ => rfl)
  rw [val_main_v33_apply, val_main_call8_v1_apply, val_main_call8_v0_apply, val_main_cst_6_apply, val_main_v32_apply, e2,
    val_main_v31_apply, val_main_cst_5_apply]
  simp only [e1, Ideal.maximumf_def, Ideal.ofBits_def]
  rfl

/-- The neighbour sum divided by the clamped degree. -/
theorem agg3 (b : Fin 4) (r : Fin 4096) (d : Fin 128) :
    val_main_v35 (F := Ideal) x0 x1 x2 x3 x4 x5 (ix3 b r d) = aggR (fun i j => x1 (ix3 b i j)) (fun j d' => val_main_v29 (F := Ideal) x0 x1 x2 x3 x4 x5 (ix3 b j d')) r d := by
  have e4 : idx_main_v34 (ix3 b r d) = ix3 b r (0 : Fin 1) := funext fun a => Fin.ext (by match a with | ⟨0, _⟩ => rfl | ⟨1, _⟩ => rfl | ⟨2, _⟩ => rfl)
  have el : ∀ k, lidx_main_v30 (ix3 b r d) k = ix3 b r k := fun k => funext fun a => Fin.ext (by match a with | ⟨0, _⟩ => rfl | ⟨1, _⟩ => rfl | ⟨2, _⟩ => rfl)
  have er : ∀ k, ridx_main_v30 (ix3 b r d) k = ix3 b k d := fun k => funext fun a => Fin.ext (by match a with | ⟨0, _⟩ => rfl | ⟨1, _⟩ => rfl | ⟨2, _⟩ => rfl)
  rw [val_main_v35_apply, val_main_v34_apply, e4, deg3, val_main_v30_apply]
  simp only [el, er, Ideal.hostDivf_def]
  generalize val_main_v29 (F := Ideal) x0 x1 x2 x3 x4 x5 = y
  rfl

/-- The linear map with its bias, applied to the aggregated features. -/
theorem lin3 (b : Fin 4) (r : Fin 4096) (e : Fin 64) :
    val_main_v39 (F := Ideal) x0 x1 x2 x3 x4 x5 x6 x7 (ix3 b r e) = linOf (aggR (fun i j => x1 (ix3 b i j)) (fun j d' => val_main_v29 (F := Ideal) x0 x1 x2 x3 x4 x5 (ix3 b j d'))) (fun d e' => x6 (ix2 d e')) (fun e' => x7 (ix1 e')) r e := by
  have el : ∀ k, lidx_main_v36 (ix3 b r e) k = ix3 b r k := fun k => funext fun a => Fin.ext (by match a with | ⟨0, _⟩ => rfl | ⟨1, _⟩ => rfl | ⟨2, _⟩ => rfl)
  have er : ∀ k, ridx_main_v36 (ix3 b r e) k = ix2 k e := fun k => funext fun a => Fin.ext (by match a with | ⟨0, _⟩ => rfl | ⟨1, _⟩ => rfl)
  have e8 : idx_main_v37 (idx_main_v38 (ix3 b r e)) = ix1 e := funext fun a => Fin.ext (by match a with | ⟨0, _⟩ => rfl)
  rw [val_main_v39_apply, val_main_v36_apply, val_main_v38_apply, val_main_v37_apply, e8]
  simp only [el, er, agg3, Ideal.addf_def]
  generalize val_main_v29 (F := Ideal) x0 x1 x2 x3 x4 x5 = y
  rfl

/-- The clamped Euclidean norm of row `r` after the linear map. -/
theorem nrm3 (b : Fin 4) (r : Fin 4096) :
    val_main_v41 (F := Ideal) x0 x1 x2 x3 x4 x5 x6 x7 (ix3 b r (0 : Fin 1)) = nrmR (linOf (aggR (fun i j => x1 (ix3 b i j)) (fun j d' => val_main_v29 (F := Ideal) x0 x1 x2 x3 x4 x5 (ix3 b j d'))) (fun d e' => x6 (ix2 d e')) (fun e' => x7 (ix1 e')) r) := by
  have e2 : idx_main_call9_v2 (ix3 b r (0 : Fin 1)) = ix2 b r := funext fun a => Fin.ext (by match a with | ⟨0, _⟩ => rfl | ⟨1, _⟩ => rfl)
  have e1 : ∀ k, idx_main_call9_v1 (ix2 b r) k = ix3 b r k := fun k => funext fun a => Fin.ext (by match a with | ⟨0, _⟩ => rfl | ⟨1, _⟩ => rfl | ⟨2, _⟩ => rfl)
  rw [val_main_v41_apply, val_main_call10_v1_apply, val_main_call10_v0_apply, val_main_cst_7_apply, val_main_v40_apply,
    val_main_call9_v2_apply, e2, val_main_call9_v1_apply, val_main_call9_cst_apply]
  simp only [e1, val_main_call9_v0_apply, lin3, Ideal.maximumf_def, Ideal.hostUnary_sqrt_def, Ideal.mulf_def, Ideal.ofBits_def]
  generalize val_main_v29 (F := Ideal) x0 x1 x2 x3 x4 x5 = y
  rfl

/-- Layer 3 at node `r`, coordinate `e`. -/
theorem layer3 (b : Fin 4) (r : Fin 4096) (e : Fin 64) :
    val_main_v44 (F := Ideal) x0 x1 x2 x3 x4 x5 x6 x7 (ix3 b r e) = layerR (fun i j => x1 (ix3 b i j)) (fun j d' => val_main_v29 (F := Ideal) x0 x1 x2 x3 x4 x5 (ix3 b j d')) (fun d e' => x6 (ix2 d e')) (fun e' => x7 (ix1 e')) r e := by
  have e12 : idx_main_v42 (ix3 b r e) = ix3 b r (0 : Fin 1) := funext fun a => Fin.ext (by match a with | ⟨0, _⟩ => rfl | ⟨1, _⟩ => rfl | ⟨2, _⟩ => rfl)
  rw [val_main_v44_apply, val_main_call11_v0_apply, val_main_call11_cst_apply, val_main_v43_apply, val_main_v42_apply, e12,
    nrm3, lin3]
  simp only [Ideal.maximumf_def, Ideal.hostDivf_def, Ideal.ofBits_def]
  generalize val_main_v29 (F := Ideal) x0 x1 x2 x3 x4 x5 = y
  rfl

end Cert.Sage.Ref

end
-- ==== Proof.RefNet.lean ====
/-
  The reference program's output read at an index: the row softmax of the third layer, and the three layers chained,
  give the network of the specification applied to one graph's adjacency, features, weights and biases.
-/
import proofs.«132532_g79680233276342_cont_9to1_m_150_2_alg».proof.Proof.RefL1
import proofs.«132532_g79680233276342_cont_9to1_m_150_2_alg».proof.Proof.RefL2
import proofs.«132532_g79680233276342_cont_9to1_m_150_2_alg».proof.Proof.RefL3

noncomputable section

open scoped BigOperators

namespace Cert.Sage.Ref

open Cert.ReferenceIdeal Cert.ReferenceIdeal.ReadP Idealize.ShloMosaic Idealize.ShloMosaic.ValueIdx

section Softmax

variable (x0 : (⟨S4x4096x128, .f32⟩ : BufTy).Contents (Elt Ideal)) (x1 : (⟨S4x4096x4096, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-- The row maximum: the fold of max, started at the literal −∞, over the 64 coordinates of the third layer's output. -/
theorem rowmax (b : Fin 4) (r : Fin 4096) :
    val_main_v45 (F := Ideal) x0 x1 x2 x3 x4 x5 x6 x7 (ix2 b r)
      = (Finset.univ : Finset (Fin 64)).fold max ninf (fun e => val_main_v44 (F := Ideal) x0 x1 x2 x3 x4 x5 x6 x7 (ix3 b r e)) := by
  unfold val_main_v45
  generalize val_main_v44 (F := Ideal) x0 x1 x2 x3 x4 x5 x6 x7 = y
  have h : S4x4096x64.Reduces [2] S4x4096 := by decide
  refine (@Host.reduce_eq_fold_single (Ideal .f32) S4x4096x64 S4x4096 2 S_ (FloatOps.maximumf (F := Ideal) (φ := .f32)) _ _ y
    (val_main_cst_8 (F := Ideal)) Gen.reducesTo_S4x4096x64_S4x4096_d2 h Gen.h_S_ (ix2 b r)).trans ?_
  have hf : (y ∘ h.lift (ix2 b r)) = fun e : Fin 64 => y (ix3 b r e) :=
    funext fun k => congrArg y (funext fun c => Fin.ext (by match c with | ⟨0, _⟩ => rfl | ⟨1, _⟩ => rfl | ⟨2, _⟩ => rfl))
  exact congrArg (fun f => Finset.fold max ninf f (Finset.univ : Finset (Fin 64))) hf

/-- The exponential of a coordinate minus the row maximum (taken once more against −∞). -/
theorem expo (b : Fin 4) (r : Fin 4096) (e : Fin 64) :
    val_main_v51 (F := Ideal) x0 x1 x2 x3 x4 x5 x6 x7 (ix3 b r e)
      = Ideal.exp (val_main_v44 (F := Ideal) x0 x1 x2 x3 x4 x5 x6 x7 (ix3 b r e)
          - max ninf ((Finset.univ : Finset (Fin 64)).fold max ninf (fun e' => val_main_v44 (F := Ideal) x0 x1 x2 x3 x4 x5 x6 x7 (ix3 b r e')))) := by
  have e49 : idx_main_v48 (idx_main_v49 (ix3 b r e)) = ix2 b r := funext fun a => Fin.ext (by match a with | ⟨0, _⟩ => rfl | ⟨1, _⟩ => rfl)
  rw [val_main_v51_apply, val_main_v50_apply, val_main_v49_apply, val_main_v48_apply, e49, val_main_v47_apply, val_main_v46_apply,
    val_main_cst_9_apply, rowmax]
  generalize val_main_v44 (F := Ideal) x0 x1 x2 x3 x4 x5 x6 x7 = y
  rfl

/-- The row softmax of the third layer's output. -/
theorem soft (b : Fin 4) (r : Fin 4096) (e : Fin 64) :
    val_main_v55 (F := Ideal) x0 x1 x2 x3 x4 x5 x6 x7 (ix3 b r e) = smR (fun e' => val_main_v44 (F := Ideal) x0 x1 x2 x3 x4 x5 x6 x7 (ix3 b r e')) e := by
  have e54 : idx_main_v53 (idx_main_v54 (ix3 b r e)) = ix2 b r := funext fun a => Fin.ext (by match a with | ⟨0, _⟩ => rfl | ⟨1, _⟩ => rfl)
  have e52 : ∀ k, idx_main_v52 (ix2 b r) k = ix3 b r k := fun k => funext fun a => Fin.ext (by match a with | ⟨0, _⟩ => rfl | ⟨1, _⟩ => rfl | ⟨2, _⟩ => rfl)
  rw [val_main_v55_apply, val_main_v54_apply, val_main_v53_apply, e54, val_main_v52_apply, val_main_cst_10_apply, expo]
  simp only [e52, expo, Ideal.hostDivf_def, Ideal.ofBits_def]
  generalize val_main_v44 (F := Ideal) x0 x1 x2 x3 x4 x5 x6 x7 = y
  rfl

end Softmax

/-- The reference program's output at (b, r, e) is the network of the specification on graph b. -/
theorem ref_eq (x0 : (⟨S4x4096x128, .f32⟩ : BufTy).Contents (Elt Ideal)) (x1 : (⟨S4x4096x4096, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (b : Fin 4) (r : Fin 4096) (e : Fin 64) :
    Cert.ReferenceIdeal.ReadP.val_main_v55 (F := Ideal) x0 x1 x2 x3 x4 x5 x6 x7 (ix3 b r e)
      = Cert.Sage.netR (fun i j => x1 (ix3 b i j)) (fun j d => x0 (ix3 b j d)) (fun d e' => x2 (ix2 d e')) (fun e' => x3 (ix1 e')) (fun d e' => x4 (ix2 d e')) (fun e' => x5 (ix1 e')) (fun d e' => x6 (ix2 d e')) (fun e' => x7 (ix1 e')) r e := by
  have h1 : (fun j d' => val_main_v14 (F := Ideal) x0 x1 x2 x3 (ix3 b j d'))
      = layerR (fun i j => x1 (ix3 b i j)) (fun j d => x0 (ix3 b j d)) (fun d e' => x2 (ix2 d e')) (fun e' => x3 (ix1 e')) :=
    funext fun j => funext fun d' => layer1 x0 x1 x2 x3 b j d'
  have h2 : (fun j d' => val_main_v29 (F := Ideal) x0 x1 x2 x3 x4 x5 (ix3 b j d'))
      = layerR (fun i j => x1 (ix3 b i j)) (layerR (fun i j => x1 (ix3 b i j)) (fun j d => x0 (ix3 b j d)) (fun d e' => x2 (ix2 d e')) (fun e' => x3 (ix1 e')))
          (fun d e' => x4 (ix2 d e')) (fun e' => x5 (ix1 e')) :=
    funext fun j => funext fun d' => by rw [layer2, h1]
  have h3 : (fun e' => val_main_v44 (F := Ideal) x0 x1 x2 x3 x4 x5 x6 x7 (ix3 b r e'))
      = layerR (fun i j => x1 (ix3 b i j))
          (layerR (fun i j => x1 (ix3 b i j)) (layerR (fun i j => x1 (ix3 b i j)) (fun j d => x0 (ix3 b j d)) (fun d e' => x2 (ix2 d e')) (fun e' => x3 (ix1 e')))
            (fun d e' => x4 (ix2 d e')) (fun e' => x5 (ix1 e')))
          (fun d e' => x6 (ix2 d e')) (fun e' => x7 (ix1 e')) r :=
    funext fun e' => by rw [layer3, h2]
  rw [soft, h3]
  rfl

end Cert.Sage.Ref

end
-- ==== Proof.lean ====
/-
  The certificate's five claims.

  Both programs compute, on each of the four graphs, three stacked mean-aggregation layers (neighbour sum over the
  dense adjacency divided by the clamped degree, a linear map with bias, division by the clamped Euclidean norm of
  the row, a clamp at zero) followed by a row softmax.  The kernel program normalises the adjacency once — each
  entry times one over its row's clamped degree — and feeds the normalised adjacency to all three layers; the
  reference divides every layer's neighbour sum by the clamped degree.  On the extended reals the two are one
  function: the clamped degree is at least the positive clamp, so its inverse is a nonnegative real (zero for an
  infinite degree), and multiplying by a nonnegative real distributes over every sum (Proof/Spec.lean, net_eq).
  The statement's precondition (finite inputs) is not needed for that and is not used.

  The three frames: the two kernel programs' by their generated frame certificates; the reference has no kernel,
  and its frame is its run with the result dropped.  The idealization rewrote nothing, so preserves is trivial.
  The algebraic claim: the idealized kernel program ends with the specification's network in the kernel's spelling
  (Proof/KValue.lean), the reference with the same network in its own spelling (Proof/RefNet.lean), from memories
  that agree on the eight arguments.
-/
import proofs.«132532_g79680233276342_cont_9to1_m_150_2_alg».proof.Defs
import proofs.«132532_g79680233276342_cont_9to1_m_150_2_alg».proof.Proof.Gen.Kernel
import proofs.«132532_g79680233276342_cont_9to1_m_150_2_alg».proof.Proof.Gen.Kernel.Skeleton
import proofs.«132532_g79680233276342_cont_9to1_m_150_2_alg».proof.Proof.Gen.Kernel.Launch
import proofs.«132532_g79680233276342_cont_9to1_m_150_2_alg».proof.Proof.Gen.Kernel.Points
import proofs.«132532_g79680233276342_cont_9to1_m_150_2_alg».proof.Proof.Gen.Kernel.Frame
import proofs.«132532_g79680233276342_cont_9to1_m_150_2_alg».proof.Proof.Gen.KernelIdeal
import proofs.«132532_g79680233276342_cont_9to1_m_150_2_alg».proof.Proof.Gen.KernelIdeal.Skeleton
import proofs.«132532_g79680233276342_cont_9to1_m_150_2_alg».proof.Proof.Gen.KernelIdeal.Launch
import proofs.«132532_g79680233276342_cont_9to1_m_150_2_alg».proof.Proof.Gen.KernelIdeal.Points
import proofs.«132532_g79680233276342_cont_9to1_m_150_2_alg».proof.Proof.Gen.KernelIdeal.Frame
import proofs.«132532_g79680233276342_cont_9to1_m_150_2_alg».proof.Proof.Gen.ReferenceIdeal
import proofs.«132532_g79680233276342_cont_9to1_m_150_2_alg».proof.Proof.Gen.Pre_finite_inputs
import proofs.«132532_g79680233276342_cont_9to1_m_150_2_alg».proof.Proof.KValue
import proofs.«132532_g79680233276342_cont_9to1_m_150_2_alg».proof.Proof.RefNet
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The kernel's network and the reference's network are one function of arrays that agree. -/
theorem algebraic : Cert.algebraic_KernelIdeal_ReferenceIdeal := by
  intro m ρ m' ρ' _ hagree
  refine ⟨_, Cert.Sage.Value.run m ρ, ?_⟩
  refine (θ_run Cert.ReferenceIdeal.defs _ _).mono (fun _ h c => ⟨(h c).1.trans ?_, (h c).2⟩)
    (Cert.ReferenceIdeal.ValueP.run (F := Ideal) m' ρ')
  obtain ⟨g0, g1, g2, g3, g4, g5, g6, g7⟩ := hagree c
  rw [Cert.ReferenceIdeal.ReadP.val_main_v55_eq, g0, g1, g2, g3, g4, g5, g6, g7]
  funext i
  obtain ⟨b, r, e, rfl⟩ : ∃ (b : Fin 4) (r : Fin 4096) (e : Fin 64), i = ix3 b r e := ⟨i 0, i 1, i 2, eq_ix3 i⟩
  rw [Cert.Sage.Ref.ref_eq]
  unfold Cert.Sage.Value.Kout
  rw [Cert.Sage.net_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
